-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000 : Shape := ⟨1, ![640000]⟩
abbrev S2x100000 : Shape := ⟨2, ![2, 100000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg7 : FVec F S128x128 .f32) (main_arg8 : FVec F S128 .f32) (main_arg9 : FVec F S256x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x1 .f32 := Host.absf main_arg9
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg10 main_v33

def fn {F : FTy → Type} [FloatOps F] (main_arg0 : FVec F S50000x128 .f32) (main_arg1 : IVec S2x640000 32) (main_arg2 : FVec F S640000 .f32) (main_arg3 : IVec S2x100000 32) (main_arg4 : IVec S2x100000 32) (main_arg5 : FVec F S128x128 .f32) (main_arg6 : FVec F S128 .f32) (main_arg7 : FVec F S128x128 .f32) (main_arg8 : FVec F S128 .f32) (main_arg9 : FVec F S256x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_v13 main_v16
-- ==== Kernel.lean ====
abbrev S50000x128 : Shape := ⟨2, ![50000, 128]⟩
abbrev S2x640000 : Shape := ⟨2, ![2, 640000]⟩
abbrev S640000 : Shape := ⟨1, ![640000]⟩
abbrev S2x100000 : Shape := ⟨2, ![2, 100000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x640000 : Shape := ⟨2, ![1, 640000]⟩
abbrev S50000 : Shape := ⟨1, ![50000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩
abbrev S128x1 : Shape := ⟨2, ![128, 1]⟩
abbrev S128x2 : Shape := ⟨2, ![128, 2]⟩
abbrev S50000x2 : Shape := ⟨2, ![50000, 2]⟩
abbrev S5000x2 : Shape := ⟨2, ![5000, 2]⟩
abbrev S2x200000 : Shape := ⟨2, ![2, 200000]⟩
abbrev S1x200000 : Shape := ⟨2, ![1, 200000]⟩
abbrev S200000 : Shape := ⟨1, ![200000]⟩
abbrev S200000x1 : Shape := ⟨2, ![200000, 1]⟩
abbrev S200000x2 : Shape := ⟨2, ![200000, 2]⟩
abbrev S100000 : Shape := ⟨1, ![100000]⟩

abbrev nBuf : Space → Nat
  | .hbm => 142
  | .vmem => 18
  | .smem => 0
  | _ => 0

abbrev hbmTy0_0 (i : Nat) : BufTy := match i % 128 with
  | 0 => ⟨S50000x128, .f32⟩
  | 1 => ⟨S2x640000, .i32⟩
  | 2 => ⟨S640000, .f32⟩
  | 3 => ⟨S2x100000, .i32⟩
  | 4 => ⟨S2x100000, .i32⟩
  | 5 => ⟨S128x128, .f32⟩
  | 6 => ⟨S128, .f32⟩
  | 7 => ⟨S128x128, .f32⟩
  | 8 => ⟨S128, .f32⟩
  | 9 => ⟨S256x1, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S50000, .i32⟩
  | 16 => ⟨S690000, .i32⟩
  | 17 => ⟨S690000, .i32⟩
  | 18 => ⟨S_, .f32⟩
  | 19 => ⟨S50000, .f32⟩
  | 20 => ⟨S690000, .f32⟩
  | 21 => ⟨S_, .f32⟩
  | 22 => ⟨S50000, .f32⟩
  | 23 => ⟨S690000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S690000, .i32⟩
  | 35 => ⟨S690000, .i1⟩
  | 36 => ⟨S_, .i32⟩
  | 37 => ⟨S690000, .i32⟩
  | 38 => ⟨S690000, .i32⟩
  | 39 => ⟨S690000, .i32⟩
  | 40 => ⟨S690000x1, .i32⟩
  | 41 => ⟨S690000, .f32⟩
  | 42 => ⟨S690000, .f32⟩
  | 43 => ⟨S_, .i32⟩
  | 44 => ⟨S690000, .i32⟩
  | 45 => ⟨S690000, .i1⟩
  | 46 => ⟨S_, .i32⟩
  | 47 => ⟨S690000, .i32⟩
  | 48 => ⟨S690000, .i32⟩
  | 49 => ⟨S690000, .i32⟩
  | 50 => ⟨S690000x1, .i32⟩
  | 51 => ⟨S690000, .f32⟩
  | 52 => ⟨S690000, .f32⟩
  | 53 => ⟨S50000x128, .f32⟩
  | 54 => ⟨S_, .i32⟩
  | 55 => ⟨S690000, .i32⟩
  | 56 => ⟨S690000, .i1⟩
  | 57 => ⟨S_, .i32⟩
  | 58 => ⟨S690000, .i32⟩
  | 59 => ⟨S690000, .i32⟩
  | 60 => ⟨S690000, .i32⟩
  | 61 => ⟨S690000x1, .i32⟩
  | 62 => ⟨S690000x128, .f32⟩
  | 63 => ⟨S690000x1, .f32⟩
  | 64 => ⟨S690000x128, .f32⟩
  | 65 => ⟨S690000x128, .f32⟩
  | 66 => ⟨S_, .f32⟩
  | 67 => ⟨S50000x128, .f32⟩
  | 68 => ⟨S690000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S_, .i32⟩
  | 78 => ⟨S690000, .i32⟩
  | 79 => ⟨S690000, .i1⟩
  | 80 => ⟨S_, .i32⟩
  | 81 => ⟨S690000, .i32⟩
  | 82 => ⟨S690000, .i32⟩
  | 83 => ⟨S690000, .i32⟩
  | 84 => ⟨S690000x1, .i32⟩
  | 85 => ⟨S690000x128, .f32⟩
  | 86 => ⟨S690000x1, .f32⟩
  | 87 => ⟨S690000x128, .f32⟩
  | 88 => ⟨S690000x128, .f32⟩
  | 89 => ⟨S_, .f32⟩
  | 90 => ⟨S50000x128, .f32⟩
  | 91 => ⟨S690000x1, .i32⟩
  | 92 => ⟨S50000x128, .f32⟩
  | 93 => ⟨S128x1, .f32⟩
  | 94 => ⟨S128, .f32⟩
  | 95 => ⟨S128x1, .f32⟩
  | 96 => ⟨S128, .f32⟩
  | 97 => ⟨S128x1, .f32⟩
  | 98 => ⟨S128x1, .f32⟩
  | 99 => ⟨S128x2, .f32⟩
  | 100 => ⟨S1x128, .f32⟩
  | 101 => ⟨S50000x128, .f32⟩
  | 102 => ⟨S50000x2, .f32⟩
  | 103 => ⟨S2x200000, .i32⟩
  | 104 => ⟨S1x200000, .i32⟩
  | 105 => ⟨S200000, .i32⟩
  | 106 => ⟨S1x200000, .i32⟩
  | 107 => ⟨S200000, .i32⟩
  | 108 => ⟨S_, .i32⟩
  | 109 => ⟨S200000, .i32⟩
  | 110 => ⟨S200000, .i1⟩
  | 111 => ⟨S_, .i32⟩
  | 112 => ⟨S200000, .i32⟩
  | 113 => ⟨S200000, .i32⟩
  | 114 => ⟨S200000, .i32⟩
  | 115 => ⟨S_, .i32⟩
  | 116 => ⟨S200000, .i32⟩
  | 117 => ⟨S200000, .i32⟩
  | 118 => ⟨S200000x1, .i32⟩
  | 119 => ⟨S200000x1, .i32⟩
  | 120 => ⟨S200000x2, .i32⟩
  | 121 => ⟨S200000, .f32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S50000x128, .f32⟩

abbrev hbmTy0_1 (i : Nat) : BufTy := match i % 128 with
  | 0 => ⟨S200000, .i32⟩
  | 1 => ⟨S_, .i32⟩
  | 2 => ⟨S200000, .i32⟩
  | 3 => ⟨S200000, .i32⟩
  | 4 => ⟨S200000x1, .i32⟩
  | 5 => ⟨S200000x1, .i32⟩
  | 6 => ⟨S200000x2, .i32⟩
  | 7 => ⟨S200000, .f32⟩
  | 8 => ⟨S200000, .f32⟩
  | 9 => ⟨S_, .f32⟩
  | 10 => ⟨S200000, .f32⟩
  | 11 => ⟨S200000, .f32⟩
  | 12 => ⟨S100000, .f32⟩
  | 13 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S128x2, .f32⟩
  | .local _ .vmem, ⟨14, _⟩ => ⟨S5000x128, .f32⟩
  | .local _ .vmem, ⟨15, _⟩ => ⟨S5000x128, .f32⟩
  | .local _ .vmem, ⟨16, _⟩ => ⟨S5000x2, .f32⟩
  | .local _ .vmem, ⟨17, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_c_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72_0 : Ref sig .tc := ⟨.hbm, 101, rfl⟩
abbrev main_v72_1 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_12 : Ref sig .tc := ⟨.hbm, 108, rfl⟩
abbrev main_v78 : Ref sig .tc := ⟨.hbm, 109, rfl⟩
abbrev main_v79 : Ref sig .tc := ⟨.hbm, 110, rfl⟩
abbrev main_c_13 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_14 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_15 : Ref sig .tc := ⟨.hbm, 122, rfl⟩
abbrev main_v89 : Ref sig .tc := ⟨.hbm, 123, rfl⟩
abbrev main_v90 : Ref sig .tc := ⟨.hbm, 124, rfl⟩
abbrev main_c_16 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  slices_S256x1_S128x1_0_0 : S256x1.Slices ![0, 0] S128x1
  shapeCasts_S128x1_S128 : S128x1.ShapeCasts S128
  slices_S256x1_S128x1_128_0 : S256x1.Slices ![128, 0] S128x1
  bcast_S128_S128x1_0 : S128.BroadcastsInDim S128x1 (![0] : Fin 1 → Fin S128x1.rank)
  concatenates_S128x1_S128x1_S128x2_d1 : Shape.Concatenates [S128x1, S128x1] S128x2 1
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  concatenates_S2x100000_S2x100000_S2x200000_d1 : Shape.Concatenates [S2x100000, S2x100000] S2x200000 1
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  shapeCasts_S1_S_ : S1.ShapeCasts S_
  slices_S200000_S100000_0 : S200000.Slices ![0] S100000
  slices_S200000_S100000_100000 : S200000.Slices ![100000] S100000
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x2_S5000x2_1_0_0_1_n_n_wf : DotDims.WF S5000x128 S128x2 S5000x2 [1] [0] [0] [1] [] []
  gather_S50000x2_S200000x2_S200000_n_01_n_n_01_1_11_wf : GatherDims.WF S50000x2 S200000x2 S200000 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x2.size a ≤ S128x2.size a
  hwx2_2 : ∀ i : grid2.Coords, EltTy.bits .f32 = 32 ∨ (Rect.block (s := S128x2) S128x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S50000x2.size a
  hwx2_4 : ∀ i : grid2.Coords, EltTy.bits .f32 = 32 ∨ (Rect.block (s := S50000x2) S5000x2.size (cc2_transform_4 i) (hinb2_4 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S200000x2_S200000_n_01_n_n_01_1_11 : GatherDims S50000x2 S200000x2 S200000 where
  offsetDims := []
  collapsedSliceDims := [0, 1]
  operandBatchingDims := []
  startIndicesBatchingDims := []
  startIndexMap := [0, 1]
  indexVectorDim := 1
  sliceSizes := ![1, 1]
  wf := gather_S50000x2_S200000x2_S200000_n_01_n_n_01_1_11_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S128x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v72_1) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000 : Shape := ⟨1, ![640000]⟩
abbrev S2x100000 : Shape := ⟨2, ![2, 100000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x640000 : Shape := ⟨2, ![1, 640000]⟩
abbrev S50000 : Shape := ⟨1, ![50000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩
abbrev S100000x256 : Shape := ⟨2, ![100000, 256]⟩
abbrev S1x1 : Shape := ⟨2, ![1, 1]⟩

abbrev nBuf : Space → Nat
  | .hbm => 190
  | .vmem => 0
  | .smem => 0
  | _ => 0

abbrev hbmTy0_0 (i : Nat) : BufTy := match i % 128 with
  | 0 => ⟨S50000x128, .f32⟩
  | 1 => ⟨S2x640000, .i32⟩
  | 2 => ⟨S640000, .f32⟩
  | 3 => ⟨S2x100000, .i32⟩
  | 4 => ⟨S2x100000, .i32⟩
  | 5 => ⟨S128x128, .f32⟩
  | 6 => ⟨S128, .f32⟩
  | 7 => ⟨S128x128, .f32⟩
  | 8 => ⟨S128, .f32⟩
  | 9 => ⟨S256x1, .f32⟩
  | 10 => ⟨S1, .f32⟩
  | 11 => ⟨S1x640000, .i32⟩
  | 12 => ⟨S640000, .i32⟩
  | 13 => ⟨S1x640000, .i32⟩
  | 14 => ⟨S640000, .i32⟩
  | 15 => ⟨S50000, .i32⟩
  | 16 => ⟨S690000, .i32⟩
  | 17 => ⟨S690000, .i32⟩
  | 18 => ⟨S_, .f32⟩
  | 19 => ⟨S50000, .f32⟩
  | 20 => ⟨S690000, .f32⟩
  | 21 => ⟨S_, .f32⟩
  | 22 => ⟨S50000, .f32⟩
  | 23 => ⟨S690000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S690000, .i32⟩
  | 35 => ⟨S690000, .i1⟩
  | 36 => ⟨S_, .i32⟩
  | 37 => ⟨S690000, .i32⟩
  | 38 => ⟨S690000, .i32⟩
  | 39 => ⟨S690000, .i32⟩
  | 40 => ⟨S690000x1, .i32⟩
  | 41 => ⟨S690000, .f32⟩
  | 42 => ⟨S690000, .f32⟩
  | 43 => ⟨S_, .i32⟩
  | 44 => ⟨S690000, .i32⟩
  | 45 => ⟨S690000, .i1⟩
  | 46 => ⟨S_, .i32⟩
  | 47 => ⟨S690000, .i32⟩
  | 48 => ⟨S690000, .i32⟩
  | 49 => ⟨S690000, .i32⟩
  | 50 => ⟨S690000x1, .i32⟩
  | 51 => ⟨S690000, .f32⟩
  | 52 => ⟨S690000, .f32⟩
  | 53 => ⟨S50000x128, .f32⟩
  | 54 => ⟨S_, .i32⟩
  | 55 => ⟨S690000, .i32⟩
  | 56 => ⟨S690000, .i1⟩
  | 57 => ⟨S_, .i32⟩
  | 58 => ⟨S690000, .i32⟩
  | 59 => ⟨S690000, .i32⟩
  | 60 => ⟨S690000, .i32⟩
  | 61 => ⟨S690000x1, .i32⟩
  | 62 => ⟨S690000x128, .f32⟩
  | 63 => ⟨S690000x1, .f32⟩
  | 64 => ⟨S690000x128, .f32⟩
  | 65 => ⟨S690000x128, .f32⟩
  | 66 => ⟨S_, .f32⟩
  | 67 => ⟨S50000x128, .f32⟩
  | 68 => ⟨S690000x1, .i32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000, .i32⟩
  | 77 => ⟨S690000, .i32⟩
  | 78 => ⟨S690000, .i32⟩
  | 79 => ⟨S_, .f32⟩
  | 80 => ⟨S50000, .f32⟩
  | 81 => ⟨S690000, .f32⟩
  | 82 => ⟨S_, .f32⟩
  | 83 => ⟨S50000, .f32⟩
  | 84 => ⟨S690000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S690000, .i32⟩
  | 96 => ⟨S690000, .i1⟩
  | 97 => ⟨S_, .i32⟩
  | 98 => ⟨S690000, .i32⟩
  | 99 => ⟨S690000, .i32⟩
  | 100 => ⟨S690000, .i32⟩
  | 101 => ⟨S690000x1, .i32⟩
  | 102 => ⟨S690000, .f32⟩
  | 103 => ⟨S690000, .f32⟩
  | 104 => ⟨S_, .i32⟩
  | 105 => ⟨S690000, .i32⟩
  | 106 => ⟨S690000, .i1⟩
  | 107 => ⟨S_, .i32⟩
  | 108 => ⟨S690000, .i32⟩
  | 109 => ⟨S690000, .i32⟩
  | 110 => ⟨S690000, .i32⟩
  | 111 => ⟨S690000x1, .i32⟩
  | 112 => ⟨S690000, .f32⟩
  | 113 => ⟨S690000, .f32⟩
  | 114 => ⟨S50000x128, .f32⟩
  | 115 => ⟨S_, .i32⟩
  | 116 => ⟨S690000, .i32⟩
  | 117 => ⟨S690000, .i1⟩
  | 118 => ⟨S_, .i32⟩
  | 119 => ⟨S690000, .i32⟩
  | 120 => ⟨S690000, .i32⟩
  | 121 => ⟨S690000, .i32⟩
  | 122 => ⟨S690000x1, .i32⟩
  | 123 => ⟨S690000x128, .f32⟩
  | 124 => ⟨S690000x1, .f32⟩
  | 125 => ⟨S690000x128, .f32⟩
  | 126 => ⟨S690000x128, .f32⟩
  | 127 => ⟨S_, .f32⟩
  | _ => ⟨S50000x128, .f32⟩

abbrev hbmTy0_1 (i : Nat) : BufTy := match i % 128 with
  | 0 => ⟨S50000x128, .f32⟩
  | 1 => ⟨S690000x1, .i32⟩
  | 2 => ⟨S50000x128, .f32⟩
  | 3 => ⟨S1x128, .f32⟩
  | 4 => ⟨S50000x128, .f32⟩
  | 5 => ⟨S50000x128, .f32⟩
  | 6 => ⟨S1x100000, .i32⟩
  | 7 => ⟨S100000, .i32⟩
  | 8 => ⟨S1x100000, .i32⟩
  | 9 => ⟨S100000, .i32⟩
  | 10 => ⟨S_, .i32⟩
  | 11 => ⟨S100000, .i32⟩
  | 12 => ⟨S100000, .i1⟩
  | 13 => ⟨S_, .i32⟩
  | 14 => ⟨S100000, .i32⟩
  | 15 => ⟨S100000, .i32⟩
  | 16 => ⟨S100000, .i32⟩
  | 17 => ⟨S100000x1, .i32⟩
  | 18 => ⟨S100000x128, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x128, .f32⟩
  | 28 => ⟨S100000x256, .f32⟩
  | 29 => ⟨S100000x1, .f32⟩
  | 30 => ⟨S1x1, .f32⟩
  | 31 => ⟨S100000x1, .f32⟩
  | 32 => ⟨S100000x1, .f32⟩
  | 33 => ⟨S100000, .f32⟩
  | 34 => ⟨S1x100000, .i32⟩
  | 35 => ⟨S100000, .i32⟩
  | 36 => ⟨S1x100000, .i32⟩
  | 37 => ⟨S100000, .i32⟩
  | 38 => ⟨S_, .i32⟩
  | 39 => ⟨S100000, .i32⟩
  | 40 => ⟨S100000, .i1⟩
  | 41 => ⟨S_, .i32⟩
  | 42 => ⟨S100000, .i32⟩
  | 43 => ⟨S100000, .i32⟩
  | 44 => ⟨S100000, .i32⟩
  | 45 => ⟨S100000x1, .i32⟩
  | 46 => ⟨S100000x128, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S100000x128, .f32⟩
  | 56 => ⟨S100000x256, .f32⟩
  | 57 => ⟨S100000x1, .f32⟩
  | 58 => ⟨S1x1, .f32⟩
  | 59 => ⟨S100000x1, .f32⟩
  | 60 => ⟨S100000x1, .f32⟩
  | 61 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_9 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v61 : Ref sig .tc := ⟨.hbm, 93, rfl⟩
abbrev main_c_13 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_c_18 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_c_20 : Ref sig .tc := ⟨.hbm, 138, rfl⟩
abbrev main_v99 : Ref sig .tc := ⟨.hbm, 139, rfl⟩
abbrev main_v100 : Ref sig .tc := ⟨.hbm, 140, rfl⟩
abbrev main_c_21 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_22 : Ref sig .tc := ⟨.hbm, 147, rfl⟩
abbrev main_v106 : Ref sig .tc := ⟨.hbm, 148, rfl⟩
abbrev main_v107 : Ref sig .tc := ⟨.hbm, 149, rfl⟩
abbrev main_c_23 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_24 : Ref sig .tc := ⟨.hbm, 166, rfl⟩
abbrev main_v123 : Ref sig .tc := ⟨.hbm, 167, rfl⟩
abbrev main_v124 : Ref sig .tc := ⟨.hbm, 168, rfl⟩
abbrev main_c_25 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_26 : Ref sig .tc := ⟨.hbm, 175, rfl⟩
abbrev main_v130 : Ref sig .tc := ⟨.hbm, 176, rfl⟩
abbrev main_v131 : Ref sig .tc := ⟨.hbm, 177, rfl⟩
abbrev main_c_27 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S690000_S690000x1_0 : S690000.BroadcastsInDim S690000x1 (![0] : Fin 1 → Fin S690000x1.rank)
  bcast_S_S690000 : S_.BroadcastsInDim S690000 (![] : Fin 0 → Fin S690000.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x256_d1 : Shape.Concatenates [S100000x128, S100000x128] S100000x256 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  gather_S50000x128_S100000x1_S100000x128_1_0_n_n_0_1_1128_wf : GatherDims.WF S50000x128 S100000x1 S100000x128 [1] [0] [] [0] [] 1 ![1, 128]
  dot_S100000x256_S256x1_S100000x1_1_0_0_1_n_n_wf : DotDims.WF S100000x256 S256x1 S100000x1 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf

class Facts : Prop extends Facts₀ where

variable [Facts]
-- ==== Proof.KernelRun.lean ====
/-
  The idealized kernel's whole run, with every buffer named.  The program is ten segments: host lines, then the first
  projection's ten row tiles, host lines, the second projection's ten row tiles, host lines, the bias-and-score tiles,
  and the host lines of the decode.  Every weakly fair execution terminates, and in the final memory each buffer that
  outlives the kernels holds the value the fold of those segments gives it from the launch memory: a host line writes
  its operation's result, a kernel leaves in each of its arrays what its tiles wrote back and nothing else moves.
-/
import proofs.«153435_j21131239096607_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that is not a kernel's
    private staging space ends at the value the segments' fold gives it. -/
theorem run_buffers : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.Whole

end
-- ==== Proof.StagesStart.lean ====
/-
  The idealized kernel's buffers before its first projection.  The host lines that open the program extend the edge
  list by one self loop per node, sum the edge weights into each target node's degree, and give every edge the
  symmetric normalisation  d(source)^(-1/2) · weight · d(target)^(-1/2)  (a node of degree 0 counting as 0).  Read as
  functions of the launched arrays these are the reference's own first stages, operation for operation; the argument
  arrays are not written.  The first line is read in two parts: the ten operations that build the three extended
  lists, and the rest, which only uses those lists.
-/
import proofs.«153435_j21131239096607_2_alg».proof.Proof.Gen.KernelIdeal.Frame
import proofs.«153435_j21131239096607_2_alg».proof.Proof.Gen.ReferenceIdeal.Read

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo
open Cert.ReferenceIdeal.Read

section Lists
variable {F : FTy → Type} [FloatOps F]

/-- The ten operations that extend the edge list and the weights by one self loop per node. -/
abbrev extendOps : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_v4 (iotaInDim S50000 32 0),
    StableHlo.binary main_v1 main_v4 main_v5 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.binary main_v3 main_v4 main_v6 ((fun a b => concatenate S690000 0 [⟨S640000, a⟩, ⟨S50000, b⟩] concatenates_S640000_S50000_S690000_d0) : (⟨S640000, .i32⟩ : BufTy).Contents (Elt F) → (⟨S50000, .i32⟩ : BufTy).Contents (Elt F) → (⟨S690000, .i32⟩ : BufTy).Contents (Elt F)),
    StableHlo.nullary main_cst (constant S_ .f32 0x3F800000#32),
    StableHlo.unary main_cst main_v7 (broadcastInDim S50000 ![] bcast_S_S50000 : (⟨S_, .f32⟩ : BufTy).Contents (Elt F) → (⟨S50000, .f32⟩ : BufTy).Contents (Elt F)),
    StableHlo.binary main_arg2 main_v7 main_v8 ((fun a b => concatenate S690000 0 [⟨S640000, a⟩, ⟨S50000, b⟩] concatenates_S640000_S50000_S690000_d0) : (⟨S640000, .f32⟩ : BufTy).Contents (Elt F) → (⟨S50000, .f32⟩ : BufTy).Contents (Elt F) → (⟨S690000, .f32⟩ : BufTy).Contents (Elt F)) ]

/-- The rest of the first line: degrees, the comparison with zero and the reciprocal square root. -/
abbrev degreeOps : List (HloOp τ sig (Elt F)) :=
  [ StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v6 main_v10 (broadcastInDim S690000x1 ![0] bcast_S690000_S690000x1_0 : (⟨S690000, .i32⟩ : BufTy).Contents (Elt F) → (⟨S690000x1, .i32⟩ : BufTy).Contents (Elt F)),
    StableHlo.ternary main_v9 main_v10 main_v8 main_v11 ((fun x i u => Host.scatterAdd scatter_S50000_S690000x1_S690000_n_0_0_1 x i u) : (⟨S50000, .f32⟩ : BufTy).Contents (Elt F) → (⟨S690000x1, .i32⟩ : BufTy).Contents (Elt F) → (⟨S690000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32) ]

end Lists

variable (m : (ℓ : Loc nD τ sig) → Buf (Elt Ideal) ℓ) (ρ : Dev nD → PrngReg) (c : Dev nD)

/-- The argument arrays as launched: node features, edge list, edge weights, the two lists of node pairs to score,
    the two layers' weights and biases, the scoring weights and bias. -/
abbrev inX := m ((c : Thread nD τ).loc main_arg0)
abbrev inEdges := m ((c : Thread nD τ).loc main_arg1)
abbrev inWeight := m ((c : Thread nD τ).loc main_arg2)
abbrev inPos := m ((c : Thread nD τ).loc main_arg3)
abbrev inNeg := m ((c : Thread nD τ).loc main_arg4)
abbrev inW1 := m ((c : Thread nD τ).loc main_arg5)
abbrev inB1 := m ((c : Thread nD τ).loc main_arg6)
abbrev inW2 := m ((c : Thread nD τ).loc main_arg7)
abbrev inB2 := m ((c : Thread nD τ).loc main_arg8)
abbrev inWl := m ((c : Thread nD τ).loc main_arg9)
abbrev inBl := m ((c : Thread nD τ).loc main_arg10)

/-! ## The opening operations: the extended source, target and weight lists -/

theorem extended_sources : StableHlo.after (extendOps (F := Ideal)) (W0 m ρ c) (Proc.devRef .tc main_v5) = val_main_v5 (F := Ideal) (inEdges m c) := by
  after_results_simp
  rfl

theorem extended_targets : StableHlo.after (extendOps (F := Ideal)) (W0 m ρ c) (Proc.devRef .tc main_v6) = val_main_v6 (F := Ideal) (inEdges m c) := by
  after_results_simp
  rfl

theorem extended_weights : StableHlo.after (extendOps (F := Ideal)) (W0 m ρ c) (Proc.devRef .tc main_v8) = val_main_v8 (F := Ideal) (inWeight m c) := by
  after_results_simp
  rfl

/-! ## The called function "value where the condition holds, else zero"

It takes and returns its arrays through typed names of the caller's buffers; a buffer's type is what its name says, so
handing an array over under its typed name, or taking it back, changes nothing. -/

theorem where_cond_in (h1 h2 h3) (v : (main_v13 : Ref sig .tc).ty.Contents (Elt Ideal)) :
    ((StableHlo.TRef.of main_v13 h1 h2 h3 : StableHlo.TRef sig ⟨S50000, .i1⟩).ofBuf v : (⟨S50000, .i1⟩ : BufTy).Contents (Elt Ideal)) = v := rfl

theorem where_value_in (h1 h2 h3) (v : (main_v14 : Ref sig .tc).ty.Contents (Elt Ideal)) :
    ((StableHlo.TRef.of main_v14 h1 h2 h3 : StableHlo.TRef sig ⟨S50000, .f32⟩).ofBuf v : (⟨S50000, .f32⟩ : BufTy).Contents (Elt Ideal)) = v := rfl

theorem where_zero_in (h1 h2 h3) (v : (main_cst_2 : Ref sig .tc).ty.Contents (Elt Ideal)) :
    ((StableHlo.TRef.of main_cst_2 h1 h2 h3 : StableHlo.TRef sig ⟨S_, .f32⟩).ofBuf v : (⟨S_, .f32⟩ : BufTy).Contents (Elt Ideal)) = v := rfl

theorem where_conv_out (h1 h2 h3) (v : (⟨S_, .f32⟩ : BufTy).Contents (Elt Ideal)) :
    (StableHlo.TRef.of main_call0_v0 h1 h2 h3 : StableHlo.TRef sig ⟨S_, .f32⟩).toBuf v = v := rfl

theorem where_conv_in (h1 h2 h3) (v : (main_call0_v0 : Ref sig .tc).ty.Contents (Elt Ideal)) :
    ((StableHlo.TRef.of main_call0_v0 h1 h2 h3 : StableHlo.TRef sig ⟨S_, .f32⟩).ofBuf v : (⟨S_, .f32⟩ : BufTy).Contents (Elt Ideal)) = v := rfl

theorem where_fill_out (h1 h2 h3) (v : (⟨S50000, .f32⟩ : BufTy).Contents (Elt Ideal)) :
    (StableHlo.TRef.of main_call0_v1 h1 h2 h3 : StableHlo.TRef sig ⟨S50000, .f32⟩).toBuf v = v := rfl

theorem where_fill_in (h1 h2 h3) (v : (main_call0_v1 : Ref sig .tc).ty.Contents (Elt Ideal)) :
    ((StableHlo.TRef.of main_call0_v1 h1 h2 h3 : StableHlo.TRef sig ⟨S50000, .f32⟩).ofBuf v : (⟨S50000, .f32⟩ : BufTy).Contents (Elt Ideal)) = v := rfl

theorem where_out (h1 h2 h3) (v : (⟨S50000, .f32⟩ : BufTy).Contents (Elt Ideal)) :
    (StableHlo.TRef.of main_v15 h1 h2 h3 : StableHlo.TRef sig ⟨S50000, .f32⟩).toBuf v = v := rfl

/-! ## When the first projection starts: the extended source and target lists, the edges' normalisation, the arguments -/

theorem sources_b1 : W3 m ρ c (Proc.devRef .tc main_v5) = val_main_v5 (F := Ideal) (inEdges m c) := by
  have h5 := extended_sources m ρ c
  have h6 := extended_targets m ρ c
  have h8 := extended_weights m ρ c
  show StableHlo.after hostOps0_2 (StableHlo.after hostOps0_1 (StableHlo.after degreeOps (StableHlo.after extendOps (W0 m ρ c)))) (Proc.devRef .tc main_v5) = _
  generalize StableHlo.after extendOps (W0 m ρ c) = V1 at h5 h6 h8 ⊢
  after_results_simp
  exact h5

theorem targets_b1 : W3 m ρ c (Proc.devRef .tc main_v6) = val_main_v6 (F := Ideal) (inEdges m c) := by
  have h5 := extended_sources m ρ c
  have h6 := extended_targets m ρ c
  have h8 := extended_weights m ρ c
  show StableHlo.after hostOps0_2 (StableHlo.after hostOps0_1 (StableHlo.after degreeOps (StableHlo.after extendOps (W0 m ρ c)))) (Proc.devRef .tc main_v6) = _
  generalize StableHlo.after extendOps (W0 m ρ c) = V1 at h5 h6 h8 ⊢
  after_results_simp
  exact h6

theorem norm_b1 : W3 m ρ c (Proc.devRef .tc main_v31) = val_main_v31 (F := Ideal) (inEdges m c) (inWeight m c) := by
  have h5 := extended_sources m ρ c
  have h6 := extended_targets m ρ c
  have h8 := extended_weights m ρ c
  show StableHlo.after hostOps0_2 (StableHlo.after hostOps0_1 (StableHlo.after degreeOps (StableHlo.after extendOps (W0 m ρ c)))) (Proc.devRef .tc main_v31) = _
  generalize StableHlo.after extendOps (W0 m ρ c) = V1 at h5 h6 h8 ⊢
  after_results_simp
  rw [h5, h6, h8]
  rw [where_out, where_cond_in, where_value_in, where_fill_in, where_fill_out, where_conv_in, where_conv_out, where_zero_in]
  rfl

theorem bias1_b1 : W3 m ρ c (Proc.devRef .tc main_arg6) = inB1 m c := by
  show StableHlo.after hostOps0_2 (StableHlo.after hostOps0_1 (StableHlo.after hostOps0 (W0 m ρ c))) (Proc.devRef .tc main_arg6) = _
  after_results_simp

theorem weights2_b1 : W3 m ρ c (Proc.devRef .tc main_arg7) = inW2 m c := by
  show StableHlo.after hostOps0_2 (StableHlo.after hostOps0_1 (StableHlo.after hostOps0 (W0 m ρ c))) (Proc.devRef .tc main_arg7) = _
  after_results_simp

theorem bias2_b1 : W3 m ρ c (Proc.devRef .tc main_arg8) = inB2 m c := by
  show StableHlo.after hostOps0_2 (StableHlo.after hostOps0_1 (StableHlo.after hostOps0 (W0 m ρ c))) (Proc.devRef .tc main_arg8) = _
  after_results_simp

theorem linkw_b1 : W3 m ρ c (Proc.devRef .tc main_arg9) = inWl m c := by
  show StableHlo.after hostOps0_2 (StableHlo.after hostOps0_1 (StableHlo.after hostOps0 (W0 m ρ c))) (Proc.devRef .tc main_arg9) = _
  after_results_simp

theorem pos_b1 : W3 m ρ c (Proc.devRef .tc main_arg3) = inPos m c := by
  show StableHlo.after hostOps0_2 (StableHlo.after hostOps0_1 (StableHlo.after hostOps0 (W0 m ρ c))) (Proc.devRef .tc main_arg3) = _
  after_results_simp

theorem neg_b1 : W3 m ρ c (Proc.devRef .tc main_arg4) = inNeg m c := by
  show StableHlo.after hostOps0_2 (StableHlo.after hostOps0_1 (StableHlo.after hostOps0 (W0 m ρ c))) (Proc.devRef .tc main_arg4) = _
  after_results_simp

theorem linkb_b1 : W3 m ρ c (Proc.devRef .tc main_arg10) = inBl m c := by
  show StableHlo.after hostOps0_2 (StableHlo.after hostOps0_1 (StableHlo.after hostOps0 (W0 m ρ c))) (Proc.devRef .tc main_arg10) = _
  after_results_simp

theorem feats_b1 : W3 m ρ c (Proc.devRef .tc main_arg0) = inX m c := by
  show StableHlo.after hostOps0_2 (StableHlo.after hostOps0_1 (StableHlo.after hostOps0 (W0 m ρ c))) (Proc.devRef .tc main_arg0) = _
  after_results_simp

theorem weights1_b1 : W3 m ρ c (Proc.devRef .tc main_arg5) = inW1 m c := by
  show StableHlo.after hostOps0_2 (StableHlo.after hostOps0_1 (StableHlo.after hostOps0 (W0 m ρ c))) (Proc.devRef .tc main_arg5) = _
  after_results_simp

end Cert.KernelIdeal.Stages

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.Projection.lean ====
/-
  The two projection layers of the link predictor, read entry by entry.

  Each of the first two kernels multiplies a [50000, 128] array by a [128, 128] matrix, ten row tiles of 5000 rows at a
  time: at a grid point it loads the point's row tile and the whole matrix, narrows both (the identity on the extended
  reals), and stores the matrix unit's product into a zero accumulator — the exact sum — into the same row tile of the
  result.  So what a point writes back is the restriction to its rows of ONE function of the two arrays the region
  finds, the textbook product; the ten tiles cover the result (row r lies in tile r / 5000); and the result array after
  the region is that product: entry (p, q) is Σ_k A (p, k) · W (k, q).  Everything is stated for arbitrary buffer contents
  V at the region's entry, so it applies wherever in the program the region runs.
-/
import proofs.«153435_j21131239096607_2_alg».proof.Proof.Gen.KernelIdeal.Frame
import proofs.«153435_j21131239096607_2_alg».proof.Proof.LibDot
import Idealize.ShloMosaic.Lib.Pipeline.Value
import Idealize.ShloMosaic.Lib.ValueIdx

noncomputable section

namespace Cert.KernelIdeal.Projection

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The stored value at an entry -/

/-- The first kernel's stored value at entry (p, q): both operands pass through the narrowing unchanged and the
    matrix unit's product into a zero accumulator is the exact sum. -/
theorem product_entry (x : Vec Ideal S5000x128 .f32) (w : Vec Ideal S128x128 .f32) (p : Fin 5000) (q : Fin 128) :
    k0_pay1 (F := Ideal) x w (ix2 p q) = ∑ k : Fin 128, (x : S5000x128.Idx → EReal) (ix2 p k) * (w : S128x128.Idx → EReal) (ix2 k q) := by
  unfold k0_pay1
  exact Cert.LibDot.matmul_zero_apply dot_S5000x128_S128x128_S5000x128_1_0_0_1_n_n rfl rfl
    (fun _ _ => rfl) (fun _ _ => rfl) (fun _ _ => rfl) (fun _ _ => rfl) none
    (truncf .bf16 x bitsLt_bf16_f32) (truncf .bf16 w bitsLt_bf16_f32) p q

/-- The second kernel's stored value at entry (p, q): the same sum, its left operand first recast to its own shape. -/
theorem product_entry1 (x : Vec Ideal S5000x128 .f32) (w : Vec Ideal S128x128 .f32) (p : Fin 5000) (q : Fin 128) :
    k1_pay1 (F := Ideal) x w (ix2 p q) = ∑ k : Fin 128, (x : S5000x128.Idx → EReal) (ix2 p k) * (w : S128x128.Idx → EReal) (ix2 k q) := by
  unfold k1_pay1
  rw [shapeCast_self]
  exact Cert.LibDot.matmul_zero_apply dot_S5000x128_S128x128_S5000x128_1_0_0_1_n_n rfl rfl
    (fun _ _ => rfl) (fun _ _ => rfl) (fun _ _ => rfl) (fun _ _ => rfl) none
    (truncf .bf16 x bitsLt_bf16_f32) (truncf .bf16 w bitsLt_bf16_f32) p q

/-! ## The whole-array product and its row tiles -/

variable (V : (c : Dev nD) → (b : Ref sig .tc) → Buf (Elt Ideal) ((c : Thread nD τ).loc b))

/-- The offsets of a whole-buffer access, however the zeros are spelt. -/
theorem zero_offsets : (![0, 0] : Fin 2 → Nat) = fun _ => 0 := funext fun a => by fin_cases a <;> rfl

/-- The product of a [50000, 128] array with a [128, 128] matrix: entry (r, q) is Σ_k A (r, k) · W (k, q). -/
def rowsTimes (A : S50000x128.Idx → EReal) (W : S128x128.Idx → EReal) : S50000x128.Idx → EReal :=
  fun i => ∑ k : Fin 128, A (ix2 (i 0) k) * W (ix2 k (i 1))

/-- The product at entry (p, q). -/
theorem rowsTimes_apply (A : S50000x128.Idx → EReal) (W : S128x128.Idx → EReal) (p : Fin 50000) (q : Fin 128) :
    rowsTimes A W (ix2 p q) = ∑ k : Fin 128, A (ix2 p k) * W (ix2 k q) := rfl

/-! ## The first layer: x · W₁ -/

/-- A row tile's product, entry (p, q), is the whole product at array index i when row p of the tile is row i 0 of
    the array and column q of the matrix block is column i 1 of the matrix. -/
theorem tile_entry0 (A : S50000x128.Idx → EReal) (W : S128x128.Idx → EReal) (x : Vec Ideal S5000x128 .f32) (w : Vec Ideal S128x128 .f32)
    (p : Fin 5000) (q : Fin 128) (i : S50000x128.Idx)
    (hx : ∀ k : Fin 128, (x : S5000x128.Idx → EReal) (ix2 p k) = A (ix2 (i 0) k))
    (hw : ∀ k : Fin 128, (w : S128x128.Idx → EReal) (ix2 k q) = W (ix2 k (i 1))) :
    k0_pay1 (F := Ideal) x w (ix2 p q) = rowsTimes A W i := by
  refine (product_entry x w p q).trans ?_
  exact Finset.sum_congr rfl fun k _ => by rw [hx k, hw k]

/-- The printed index maps over the grid: the row tile of the input and of the output at point t is tile t, and the
    matrix is always its one block. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 5000 t … 5000 t + 4999 of the product of the two arrays the region finds. -/
theorem flushed_first (c : Dev nD) (t : Fin cfg0.N) :
    (dat0 (F := Ideal) V c).flushed 2 t
      = ((cfg0.win 2).blk t).view.read (Elt Ideal) (rowsTimes (V c main_arg0) (V c main_arg5)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := tiles0 t
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hq : q.val < 128 := q.isLt
  show k0_pay1 (F := Ideal) (iblk0 V c 0 t) (iblk0 V c 1 t) (ix2 p q)
      = rowsTimes (V c main_arg0) (V c main_arg5) (((cfg0.win 2).blk t).view.emb (ix2 p q))
  refine tile_entry0 (V c main_arg0) (V c main_arg5) _ _ p q _ (fun k => ?_) (fun k => ?_)
  · have hk : k.val < 128 := k.isLt
    show V c main_arg0 (((cfg0.win 0).blk t).view.emb (ix2 p k)) = _
    refine congrArg _ ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  · have hk : k.val < 128 := k.isLt
    show V c main_arg5 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the output array is in point t's block iff each coordinate is in the block's range on its axis. -/
theorem mem_tile0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row is in a tile: row r is in tile r / 5000. -/
theorem cover_first (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have hlt : (i 0).val / 5000 < cfg0.N := by rw [hN]; omega
  refine ⟨⟨(i 0).val / 5000, hlt⟩, flush0_2 _, ?_⟩
  rw [mem_tile0]
  obtain ⟨-, -, -, -, e20, e21⟩ := tiles0 ⟨(i 0).val / 5000, hlt⟩
  have e20' : win0_2.index ⟨(i 0).val / 5000, hlt⟩ (0 : Fin 2) = (i 0).val / 5000 := e20
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- After the first region the output array is the product of the two arrays the region found. -/
theorem first_array (c : Dev nD) :
    (dat0 (F := Ideal) V c).arrAt 2 cfg0.N = rowsTimes (V c main_arg0) (V c main_arg5) :=
  (dat0 (F := Ideal) V c).arrAt_eq_of_cover 2 (rowsTimes (V c main_arg0) (V c main_arg5))
    (fun t _ => flushed_first V c t) cover_first

/-- Entry (p, q) of the output array after the first region, for any names A, W of the two arrays the region found. -/
theorem first_layer (c : Dev nD) (p : Fin 50000) (q : Fin 128) (A : S50000x128.Idx → EReal) (W : S128x128.Idx → EReal)
    (hA : V c main_arg0 = A) (hW : V c main_arg5 = W) :
    (dat0 (F := Ideal) V c).arrAt 2 cfg0.N (ix2 p q) = (∑ k : Fin 128, A (ix2 p k) * W (ix2 k q) : EReal) := by
  subst hA hW
  rw [first_array]; rfl

/-! ## The second layer: h · W₂ -/

/-- A row tile's product, entry (p, q), is the whole product at array index i when row p of the tile is row i 0 of
    the array and column q of the matrix block is column i 1 of the matrix. -/
theorem tile_entry1 (A : S50000x128.Idx → EReal) (W : S128x128.Idx → EReal) (x : Vec Ideal S5000x128 .f32) (w : Vec Ideal S128x128 .f32)
    (p : Fin 5000) (q : Fin 128) (i : S50000x128.Idx)
    (hx : ∀ k : Fin 128, (x : S5000x128.Idx → EReal) (ix2 p k) = A (ix2 (i 0) k))
    (hw : ∀ k : Fin 128, (w : S128x128.Idx → EReal) (ix2 k q) = W (ix2 k (i 1))) :
    k1_pay1 (F := Ideal) x w (ix2 p q) = rowsTimes A W i := by
  refine (product_entry1 x w p q).trans ?_
  exact Finset.sum_congr rfl fun k _ => by rw [hx k, hw k]

/-- The printed index maps over the grid: the row tile of the input and of the output at point t is tile t, and the
    matrix is always its one block. -/
theorem tiles1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is rows 5000 t … 5000 t + 4999 of the product of the two arrays the region finds. -/
theorem flushed_second (c : Dev nD) (t : Fin cfg1.N) :
    (dat1 (F := Ideal) V c).flushed 2 t
      = ((cfg1.win 2).blk t).view.read (Elt Ideal) (rowsTimes (V c main_v49) (V c main_arg7)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x128) zero_offsets]
  obtain ⟨e00, e01, e10, e11, e20, e21⟩ := tiles1 t
  refine funext fun (j : S5000x128.Idx) => ?_
  obtain ⟨p, q, rfl⟩ : ∃ (p : Fin 5000) (q : Fin 128), j = ix2 p q := ⟨j 0, j 1, eq_ix2 j⟩
  have hp : p.val < 5000 := p.isLt
  have hq : q.val < 128 := q.isLt
  show k1_pay1 (F := Ideal) (iblk1 V c 0 t) (iblk1 V c 1 t) (ix2 p q)
      = rowsTimes (V c main_v49) (V c main_arg7) (((cfg1.win 2).blk t).view.emb (ix2 p q))
  refine tile_entry1 (V c main_v49) (V c main_arg7) _ _ p q _ (fun k => ?_) (fun k => ?_)
  · have hk : k.val < 128 := k.isLt
    show V c main_v49 (((cfg1.win 0).blk t).view.emb (ix2 p k)) = _
    refine congrArg _ ?_
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * k.val = k.val; omega
  · have hk : k.val < 128 := k.isLt
    show V c main_arg7 (((cfg1.win 1).blk t).view.emb (ix2 k q)) = _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega

/-- An index of the output array is in point t's block iff each coordinate is in the block's range on its axis. -/
theorem mem_tile1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Every row is in a tile: row r is in tile r / 5000. -/
theorem cover_second (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have hlt : (i 0).val / 5000 < cfg1.N := by rw [hN]; omega
  refine ⟨⟨(i 0).val / 5000, hlt⟩, flush1_2 _, ?_⟩
  rw [mem_tile1]
  obtain ⟨-, -, -, -, e20, e21⟩ := tiles1 ⟨(i 0).val / 5000, hlt⟩
  have e20' : win1_2.index ⟨(i 0).val / 5000, hlt⟩ (0 : Fin 2) = (i 0).val / 5000 := e20
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    omega

/-- After the second region the output array is the product of the two arrays the region found. -/
theorem second_array (c : Dev nD) :
    (dat1 (F := Ideal) V c).arrAt 2 cfg1.N = rowsTimes (V c main_v49) (V c main_arg7) :=
  (dat1 (F := Ideal) V c).arrAt_eq_of_cover 2 (rowsTimes (V c main_v49) (V c main_arg7))
    (fun t _ => flushed_second V c t) cover_second

/-- Entry (p, q) of the output array after the second region, for any names A, W of the two arrays the region found. -/
theorem second_layer (c : Dev nD) (p : Fin 50000) (q : Fin 128) (A : S50000x128.Idx → EReal) (W : S128x128.Idx → EReal)
    (hA : V c main_v49 = A) (hW : V c main_arg7 = W) :
    (dat1 (F := Ideal) V c).arrAt 2 cfg1.N (ix2 p q) = (∑ k : Fin 128, A (ix2 p k) * W (ix2 k q) : EReal) := by
  subst hA hW
  rw [second_array]; rfl

end Cert.KernelIdeal.Projection

end
-- ==== Proof.StagesMid.lean ====
/-
  The idealized kernel's buffers from its first projection to the start of the scoring kernel.  Each projection kernel
  leaves in its output array the product of its input rows with the weight matrix — the host's own matrix product at
  the ideal reading —, and the host lines between the kernels gather each edge's source row, scale it by the edge's
  normalisation, add it into the target node's row, add the bias and (after the first layer) keep the positive part.
  Read as functions of the launched arrays these are the reference's stages; the second layer's stages meet the
  reference's although it computes the normalisation a second time, because the two computations are one term.
-/
import proofs.«153435_j21131239096607_2_alg».proof.Proof.StagesStart
import proofs.«153435_j21131239096607_2_alg».proof.Proof.Projection

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo Idealize.ShloMosaic.ValueIdx
open Cert.ReferenceIdeal.Read
open scoped BigOperators

variable (m : (ℓ : Loc nD τ sig) → Buf (Elt Ideal) ℓ) (ρ : Dev nD → PrngReg) (c : Dev nD)

/-! ## The called function "positive part"

As for the other called function: its arrays pass through typed names of the caller's buffers, which changes nothing. -/

theorem relu_zero_out (h1 h2 h3) (v : (⟨S_, .f32⟩ : BufTy).Contents (Elt Ideal)) :
    (StableHlo.TRef.of main_call1_cst h1 h2 h3 : StableHlo.TRef sig ⟨S_, .f32⟩).toBuf v = v := rfl

theorem relu_zero_in (h1 h2 h3) (v : (main_call1_cst : Ref sig .tc).ty.Contents (Elt Ideal)) :
    ((StableHlo.TRef.of main_call1_cst h1 h2 h3 : StableHlo.TRef sig ⟨S_, .f32⟩).ofBuf v : (⟨S_, .f32⟩ : BufTy).Contents (Elt Ideal)) = v := rfl

theorem relu_fill_out (h1 h2 h3) (v : (⟨S50000x128, .f32⟩ : BufTy).Contents (Elt Ideal)) :
    (StableHlo.TRef.of main_call1_v0 h1 h2 h3 : StableHlo.TRef sig ⟨S50000x128, .f32⟩).toBuf v = v := rfl

theorem relu_fill_in (h1 h2 h3) (v : (main_call1_v0 : Ref sig .tc).ty.Contents (Elt Ideal)) :
    ((StableHlo.TRef.of main_call1_v0 h1 h2 h3 : StableHlo.TRef sig ⟨S50000x128, .f32⟩).ofBuf v : (⟨S50000x128, .f32⟩ : BufTy).Contents (Elt Ideal)) = v := rfl

theorem relu_arg_in (h1 h2 h3) (v : (main_v48 : Ref sig .tc).ty.Contents (Elt Ideal)) :
    ((StableHlo.TRef.of main_v48 h1 h2 h3 : StableHlo.TRef sig ⟨S50000x128, .f32⟩).ofBuf v : (⟨S50000x128, .f32⟩ : BufTy).Contents (Elt Ideal)) = v := rfl

theorem relu_out (h1 h2 h3) (v : (⟨S50000x128, .f32⟩ : BufTy).Contents (Elt Ideal)) :
    (StableHlo.TRef.of main_v49 h1 h2 h3 : StableHlo.TRef sig ⟨S50000x128, .f32⟩).toBuf v = v := rfl

/-! ## After the first projection -/

/-- The first projection's output array is the features times the first layer's weights. -/
theorem projected1_a1 : W4 m ρ c (Proc.devRef .tc main_v32)
    = val_main_v32 (F := Ideal) (inX m c) (inW1 m c) := by
  refine (W4_arr m ρ c 2).trans ?_
  funext i
  obtain ⟨p, q, rfl⟩ : ∃ (p : Fin 50000) (q : Fin 128), i = ix2 p q := ⟨i 0, i 1, eq_ix2 i⟩
  have el : ∀ k : Fin 128, lidx_main_v32 (ix2 p q) k = ix2 p k := fun k => funext fun a => match a with | ⟨0, _⟩ => rfl | ⟨1, _⟩ => rfl
  have er : ∀ k : Fin 128, ridx_main_v32 (ix2 p q) k = ix2 k q := fun k => funext fun a => match a with | ⟨0, _⟩ => rfl | ⟨1, _⟩ => rfl
  show ((dat0 (V3 m ρ) c).arrAt 2 cfg0.N (ix2 p q) : EReal)
    = ((val_main_v32 (F := Ideal) (inX m c) (inW1 m c) : S50000x128.Idx → EReal) (ix2 p q))
  rw [val_main_v32_apply]
  simp only [el, er]
  exact Cert.KernelIdeal.Projection.first_layer (V3 m ρ) c p q (inX m c) (inW1 m c) (feats_b1 m ρ c) (weights1_b1 m ρ c)

theorem sources_a1 : W4 m ρ c (Proc.devRef .tc main_v5) = val_main_v5 (F := Ideal) (inEdges m c) :=
  (W4_of_ne m ρ c main_v5 (by decide)).trans (sources_b1 m ρ c)

theorem targets_a1 : W4 m ρ c (Proc.devRef .tc main_v6) = val_main_v6 (F := Ideal) (inEdges m c) :=
  (W4_of_ne m ρ c main_v6 (by decide)).trans (targets_b1 m ρ c)

theorem norm_a1 : W4 m ρ c (Proc.devRef .tc main_v31) = val_main_v31 (F := Ideal) (inEdges m c) (inWeight m c) :=
  (W4_of_ne m ρ c main_v31 (by decide)).trans (norm_b1 m ρ c)

theorem bias1_a1 : W4 m ρ c (Proc.devRef .tc main_arg6) = inB1 m c :=
  (W4_of_ne m ρ c main_arg6 (by decide)).trans (bias1_b1 m ρ c)

theorem weights2_a1 : W4 m ρ c (Proc.devRef .tc main_arg7) = inW2 m c :=
  (W4_of_ne m ρ c main_arg7 (by decide)).trans (weights2_b1 m ρ c)

theorem bias2_a1 : W4 m ρ c (Proc.devRef .tc main_arg8) = inB2 m c :=
  (W4_of_ne m ρ c main_arg8 (by decide)).trans (bias2_b1 m ρ c)

theorem linkw_a1 : W4 m ρ c (Proc.devRef .tc main_arg9) = inWl m c :=
  (W4_of_ne m ρ c main_arg9 (by decide)).trans (linkw_b1 m ρ c)

theorem pos_a1 : W4 m ρ c (Proc.devRef .tc main_arg3) = inPos m c :=
  (W4_of_ne m ρ c main_arg3 (by decide)).trans (pos_b1 m ρ c)

theorem neg_a1 : W4 m ρ c (Proc.devRef .tc main_arg4) = inNeg m c :=
  (W4_of_ne m ρ c main_arg4 (by decide)).trans (neg_b1 m ρ c)

theorem linkb_a1 : W4 m ρ c (Proc.devRef .tc main_arg10) = inBl m c :=
  (W4_of_ne m ρ c main_arg10 (by decide)).trans (linkb_b1 m ρ c)

/-! ## When the second projection starts -/

/-- The first layer's output: aggregated, biased, positive part. -/
theorem hidden_b2 : W6 m ρ c (Proc.devRef .tc main_v49)
    = val_main_v49 (F := Ideal) (inX m c) (inEdges m c) (inWeight m c) (inW1 m c) (inB1 m c) := by
  show StableHlo.after hostOps1_1 (StableHlo.after hostOps1 (W4 m ρ c)) (Proc.devRef .tc main_v49) = _
  after_results_simp
  rw [projected1_a1 m ρ c, sources_a1 m ρ c, targets_a1 m ρ c, norm_a1 m ρ c, bias1_a1 m ρ c]
  rw [relu_out, relu_arg_in, relu_fill_in, relu_fill_out, relu_zero_in, relu_zero_out]
  rfl

theorem sources_b2 : W6 m ρ c (Proc.devRef .tc main_v5) = val_main_v5 (F := Ideal) (inEdges m c) := by
  show StableHlo.after hostOps1_1 (StableHlo.after hostOps1 (W4 m ρ c)) (Proc.devRef .tc main_v5) = _
  after_results_simp
  exact sources_a1 m ρ c

theorem targets_b2 : W6 m ρ c (Proc.devRef .tc main_v6) = val_main_v6 (F := Ideal) (inEdges m c) := by
  show StableHlo.after hostOps1_1 (StableHlo.after hostOps1 (W4 m ρ c)) (Proc.devRef .tc main_v6) = _
  after_results_simp
  exact targets_a1 m ρ c

theorem norm_b2 : W6 m ρ c (Proc.devRef .tc main_v31) = val_main_v31 (F := Ideal) (inEdges m c) (inWeight m c) := by
  show StableHlo.after hostOps1_1 (StableHlo.after hostOps1 (W4 m ρ c)) (Proc.devRef .tc main_v31) = _
  after_results_simp
  exact norm_a1 m ρ c

theorem weights2_b2 : W6 m ρ c (Proc.devRef .tc main_arg7) = inW2 m c := by
  show StableHlo.after hostOps1_1 (StableHlo.after hostOps1 (W4 m ρ c)) (Proc.devRef .tc main_arg7) = _
  after_results_simp
  exact weights2_a1 m ρ c

theorem bias2_b2 : W6 m ρ c (Proc.devRef .tc main_arg8) = inB2 m c := by
  show StableHlo.after hostOps1_1 (StableHlo.after hostOps1 (W4 m ρ c)) (Proc.devRef .tc main_arg8) = _
  after_results_simp
  exact bias2_a1 m ρ c

theorem linkw_b2 : W6 m ρ c (Proc.devRef .tc main_arg9) = inWl m c := by
  show StableHlo.after hostOps1_1 (StableHlo.after hostOps1 (W4 m ρ c)) (Proc.devRef .tc main_arg9) = _
  after_results_simp
  exact linkw_a1 m ρ c

theorem pos_b2 : W6 m ρ c (Proc.devRef .tc main_arg3) = inPos m c := by
  show StableHlo.after hostOps1_1 (StableHlo.after hostOps1 (W4 m ρ c)) (Proc.devRef .tc main_arg3) = _
  after_results_simp
  exact pos_a1 m ρ c

theorem neg_b2 : W6 m ρ c (Proc.devRef .tc main_arg4) = inNeg m c := by
  show StableHlo.after hostOps1_1 (StableHlo.after hostOps1 (W4 m ρ c)) (Proc.devRef .tc main_arg4) = _
  after_results_simp
  exact neg_a1 m ρ c

theorem linkb_b2 : W6 m ρ c (Proc.devRef .tc main_arg10) = inBl m c := by
  show StableHlo.after hostOps1_1 (StableHlo.after hostOps1 (W4 m ρ c)) (Proc.devRef .tc main_arg10) = _
  after_results_simp
  exact linkb_a1 m ρ c

/-! ## After the second projection -/

/-- The second projection's output array is the hidden features times the second layer's weights. -/
theorem projected2_a2 : W7 m ρ c (Proc.devRef .tc main_v50)
    = val_main_v78 (F := Ideal) (inX m c) (inEdges m c) (inWeight m c) (inW1 m c) (inB1 m c) (inW2 m c) := by
  refine (W7_arr m ρ c 2).trans ?_
  funext i
  obtain ⟨p, q, rfl⟩ : ∃ (p : Fin 50000) (q : Fin 128), i = ix2 p q := ⟨i 0, i 1, eq_ix2 i⟩
  have el : ∀ k : Fin 128, lidx_main_v78 (ix2 p q) k = ix2 p k := fun k => funext fun a => match a with | ⟨0, _⟩ => rfl | ⟨1, _⟩ => rfl
  have er : ∀ k : Fin 128, ridx_main_v78 (ix2 p q) k = ix2 k q := fun k => funext fun a => match a with | ⟨0, _⟩ => rfl | ⟨1, _⟩ => rfl
  show ((dat1 (V6 m ρ) c).arrAt 2 cfg1.N (ix2 p q) : EReal)
    = ((val_main_v78 (F := Ideal) (inX m c) (inEdges m c) (inWeight m c) (inW1 m c) (inB1 m c) (inW2 m c) : S50000x128.Idx → EReal) (ix2 p q))
  rw [val_main_v78_apply]
  simp only [el, er]
  exact Cert.KernelIdeal.Projection.second_layer (V6 m ρ) c p q (val_main_v49 (F := Ideal) (inX m c) (inEdges m c) (inWeight m c) (inW1 m c) (inB1 m c)) (inW2 m c) (hidden_b2 m ρ c) (weights2_b2 m ρ c)

theorem sources_a2 : W7 m ρ c (Proc.devRef .tc main_v5) = val_main_v5 (F := Ideal) (inEdges m c) :=
  (W7_of_ne m ρ c main_v5 (by decide)).trans (sources_b2 m ρ c)

theorem targets_a2 : W7 m ρ c (Proc.devRef .tc main_v6) = val_main_v6 (F := Ideal) (inEdges m c) :=
  (W7_of_ne m ρ c main_v6 (by decide)).trans (targets_b2 m ρ c)

theorem norm_a2 : W7 m ρ c (Proc.devRef .tc main_v31) = val_main_v31 (F := Ideal) (inEdges m c) (inWeight m c) :=
  (W7_of_ne m ρ c main_v31 (by decide)).trans (norm_b2 m ρ c)

theorem bias2_a2 : W7 m ρ c (Proc.devRef .tc main_arg8) = inB2 m c :=
  (W7_of_ne m ρ c main_arg8 (by decide)).trans (bias2_b2 m ρ c)

theorem linkw_a2 : W7 m ρ c (Proc.devRef .tc main_arg9) = inWl m c :=
  (W7_of_ne m ρ c main_arg9 (by decide)).trans (linkw_b2 m ρ c)

theorem pos_a2 : W7 m ρ c (Proc.devRef .tc main_arg3) = inPos m c :=
  (W7_of_ne m ρ c main_arg3 (by decide)).trans (pos_b2 m ρ c)

theorem neg_a2 : W7 m ρ c (Proc.devRef .tc main_arg4) = inNeg m c :=
  (W7_of_ne m ρ c main_arg4 (by decide)).trans (neg_b2 m ρ c)

theorem linkb_a2 : W7 m ρ c (Proc.devRef .tc main_arg10) = inBl m c :=
  (W7_of_ne m ρ c main_arg10 (by decide)).trans (linkb_b2 m ρ c)

/-! ## When the scoring kernel starts -/

/-- The second layer's aggregate, before its bias. -/
theorem aggregate_b3 : W8 m ρ c (Proc.devRef .tc main_v63)
    = val_main_v91 (F := Ideal) (inX m c) (inEdges m c) (inWeight m c) (inW1 m c) (inB1 m c) (inW2 m c) := by
  show StableHlo.after hostOps2 (W7 m ρ c) (Proc.devRef .tc main_v63) = _
  after_results_simp
  rw [projected2_a2 m ρ c, sources_a2 m ρ c, targets_a2 m ρ c, norm_a2 m ρ c]
  rfl

theorem pos_b3 : W8 m ρ c (Proc.devRef .tc main_arg3) = inPos m c := by
  show StableHlo.after hostOps2 (W7 m ρ c) (Proc.devRef .tc main_arg3) = _
  after_results_simp
  exact pos_a2 m ρ c

theorem neg_b3 : W8 m ρ c (Proc.devRef .tc main_arg4) = inNeg m c := by
  show StableHlo.after hostOps2 (W7 m ρ c) (Proc.devRef .tc main_arg4) = _
  after_results_simp
  exact neg_a2 m ρ c

theorem linkb_b3 : W8 m ρ c (Proc.devRef .tc main_arg10) = inBl m c := by
  show StableHlo.after hostOps2 (W7 m ρ c) (Proc.devRef .tc main_arg10) = _
  after_results_simp
  exact linkb_a2 m ρ c

end Cert.KernelIdeal.Stages

end
-- ==== Proof.Scores.lean ====
/-
  The link scores after the third region, entry by entry.

  The third region walks the 50000 rows of the aggregated features in ten tiles of 5000 rows.  On a tile it adds the bias
  row to every row of the tile and multiplies the sum by the 128 x 2 link matrix.  At the ideal reading, where rounding
  to the narrower float type is the identity and the matrix product into a zero accumulator is the exact sum, entry
  (n, j) of the scores array after the region is therefore

      Σ_k (agg (n, k) + b (0, k)) · wlink (k, j)

  of the three input arrays as the region finds them.  The proof has three parts: the tile's product at an entry (p, q);
  each tile of the region's input arrays read at an entry as an entry of the whole array (row p of tile t is row
  5000 t + p; the bias row and the link matrix are read whole at every tile); and the passage from tiles to the
  array (what tile t writes back is the restriction of ONE whole-array function to rows 5000 t … 5000 t + 4999, and
  row n lies in tile n / 5000, so the ten tiles cover the array).
-/
import proofs.«153435_j21131239096607_2_alg».proof.Proof.Gen.KernelIdeal.Frame
import proofs.«153435_j21131239096607_2_alg».proof.Proof.LibDot
import Idealize.ShloMosaic.Lib.Pipeline.Value
import Idealize.ShloMosaic.Lib.ValueIdx
import Idealize.ShloMosaic.Lib.ValueLayout

noncomputable section

namespace Cert.KernelIdeal.Scores

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## The tile's product at an entry -/

/-- Entry (p, q) of a tile's scores: the tile's row p plus the bias row, times column q of the link matrix.  The two
    roundings to the narrower float type are the identity, the casts to the same shape are the identity, the broadcast
    bias row reads its one row at every p, and the product into a zero accumulator is the exact sum over the 128
    contracted columns. -/
theorem tile_scores_apply (x0 : Vec Ideal S5000x128 .f32) (x1 : Vec Ideal S1x128 .f32) (x2 : Vec Ideal S128x2 .f32)
    (p : Fin 5000) (q : Fin 2) :
    (k2_pay2 (F := Ideal) x0 x1 x2 : S5000x2.Idx → EReal) (ix2 p q)
      = ∑ k : Fin 128, ((x0 : S5000x128.Idx → EReal) (ix2 p k) + (x1 : S1x128.Idx → EReal) (ix2 (0 : Fin 1) k)) * (x2 : S128x2.Idx → EReal) (ix2 k q) := by
  unfold k2_pay2
  refine (Cert.LibDot.matmul_zero_apply dot_S5000x128_S128x2_S5000x2_1_0_0_1_n_n rfl rfl
    (fun _ _ => rfl) (fun _ _ => rfl) (fun _ _ => rfl) (fun _ _ => rfl) none _ _ p q).trans ?_
  refine Finset.sum_congr rfl fun k _ => ?_
  refine congrArg₂ (· * ·) ?_ ?_
  · show (k2_pay1 (F := Ideal) x0 x1 : S5000x128.Idx → EReal) (ix2 p k) = _
    unfold k2_pay1
    show (shapeCast S5000x128 x0 shapeCasts_S5000x128_S5000x128 : S5000x128.Idx → EReal) (ix2 p k)
        + (broadcastTo S5000x128 (shapeCast S1x128 x1 shapeCasts_S1x128_S1x128) broadcasts_S1x128_S5000x128 : S5000x128.Idx → EReal) (ix2 p k) = _
    rw [shapeCast_self, shapeCast_self]
    exact congrArg _ (broadcastTo_1b_ab_apply x1 broadcasts_S1x128_S5000x128 p k)
  · show (shapeCast S128x2 x2 shapeCasts_S128x2_S128x2 : S128x2.Idx → EReal) (ix2 k q) = _
    rw [shapeCast_self]

/-! ## The whole-array formula -/

/-- Entry (n, j) of the scores as a function of the three input arrays: row n of the features plus the bias row, times
    column j of the link matrix. -/
def scoreAt (A : S50000x128.Idx → EReal) (b : S1x128.Idx → EReal) (W : S128x2.Idx → EReal) (n : Fin 50000) (j : Fin 2) : EReal :=
  ∑ k : Fin 128, (A (ix2 n k) + b (ix2 (0 : Fin 1) k)) * W (ix2 k j)

/-- The scores array as one function of the three input arrays. -/
def scoreArr (A : S50000x128.Idx → EReal) (b : S1x128.Idx → EReal) (W : S128x2.Idx → EReal) : S50000x2.Idx → EReal :=
  fun i => scoreAt A b W (i 0) (i 1)

/-- The whole-array formula at entry (n, j). -/
theorem scoreArr_apply (A : S50000x128.Idx → EReal) (b : S1x128.Idx → EReal) (W : S128x2.Idx → EReal) (n : Fin 50000) (j : Fin 2) :
    scoreArr A b W (ix2 n j) = ∑ k : Fin 128, (A (ix2 n k) + b (ix2 (0 : Fin 1) k)) * W (ix2 k j) := rfl

variable (V : (c : Dev nD) → (b : Ref sig .tc) → Buf (Elt Ideal) ((c : Thread nD τ).loc b))

/-! ## The tiles of the input arrays, read at an entry -/

theorem zero_offsets : (![0, 0] : Fin 2 → Nat) = fun _ => 0 := funext fun a => by fin_cases a <;> rfl

/-- The printed index maps over the ten tiles: the feature rows and the score rows are at tile t, columns at 0; the bias
    row and the link matrix are at block (0, 0) at every tile. -/
theorem tile_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_4.index t (0 : Fin 2) = t.val ∧ win2_4.index t (1 : Fin 2) = 0 :=
  (by decide +kernel : ∀ t : Fin grid2.N, _)

/-- Row p of tile t of the features is row 5000 t + p of the array. -/
theorem features_tile_apply (c : Dev nD) (t : Fin cfg2.N) (p : Fin 5000) (k : Fin 128) (n : Fin 50000)
    (hn : n.val = t.val * 5000 + p.val) :
    (iblk2 V c 0 t : S5000x128.Idx → EReal) (ix2 p k) = (V c main_v63 : S50000x128.Idx → EReal) (ix2 n k) := by
  obtain ⟨e0, e1, -⟩ := tile_indices t
  unfold iblk2
  rw [View.read_apply]
  show (V c main_v63 : S50000x128.Idx → EReal) _ = V c main_v63 _
  congr 1
  funext a
  apply Fin.ext
  match a with
  | ⟨0, _⟩ => show win2_0.index t (0 : Fin 2) * 5000 + 1 * p.val = n.val; omega
  | ⟨1, _⟩ => show win2_0.index t (1 : Fin 2) * 128 + 1 * k.val = k.val; omega

/-- The bias row is read whole at every tile. -/
theorem bias_tile_apply (c : Dev nD) (t : Fin cfg2.N) (k : Fin 128) :
    (iblk2 V c 1 t : S1x128.Idx → EReal) (ix2 (0 : Fin 1) k) = (V c main_v71 : S1x128.Idx → EReal) (ix2 (0 : Fin 1) k) := by
  obtain ⟨-, -, e0, e1, -⟩ := tile_indices t
  unfold iblk2
  rw [View.read_apply]
  show (V c main_v71 : S1x128.Idx → EReal) _ = V c main_v71 _
  congr 1
  funext a
  apply Fin.ext
  match a with
  | ⟨0, _⟩ => show win2_1.index t (0 : Fin 2) * 1 + 1 * 0 = 0; omega
  | ⟨1, _⟩ => show win2_1.index t (1 : Fin 2) * 128 + 1 * k.val = k.val; omega

/-- The link matrix is read whole at every tile. -/
theorem link_tile_apply (c : Dev nD) (t : Fin cfg2.N) (k : Fin 128) (q : Fin 2) :
    (iblk2 V c 2 t : S128x2.Idx → EReal) (ix2 k q) = (V c main_v70 : S128x2.Idx → EReal) (ix2 k q) := by
  obtain ⟨-, -, -, -, e0, e1, -⟩ := tile_indices t
  unfold iblk2
  rw [View.read_apply]
  show (V c main_v70 : S128x2.Idx → EReal) _ = V c main_v70 _
  congr 1
  funext a
  apply Fin.ext
  match a with
  | ⟨0, _⟩ => show win2_2.index t (0 : Fin 2) * 128 + 1 * k.val = k.val; omega
  | ⟨1, _⟩ => show win2_2.index t (1 : Fin 2) * 2 + 1 * q.val = q.val; omega

/-! ## From tiles to the array -/

/-- Entry (p, q) of tile t of the scores array sits at row 5000 t + p, column q. -/
theorem scores_tile_emb (t : Fin cfg2.N) (p : Fin 5000) (q : Fin 2) (n : Fin 50000) (hn : n.val = t.val * 5000 + p.val) :
    (((cfg2.win 4).blk t).view.emb (ix2 p q) : S50000x2.Idx) = ix2 n q := by
  obtain ⟨-, -, -, -, -, -, e0, e1⟩ := tile_indices t
  funext a
  apply Fin.ext
  match a with
  | ⟨0, _⟩ => show win2_4.index t (0 : Fin 2) * 5000 + 1 * p.val = n.val; omega
  | ⟨1, _⟩ => show win2_4.index t (1 : Fin 2) * 2 + 1 * q.val = q.val; omega

/-- What tile t writes back to the scores array is the restriction of the whole-array formula to the tile's rows. -/
theorem flushed_scores (c : Dev nD) (t : Fin cfg2.N) :
    (dat2 V c).flushed 4 t
      = ((cfg2.win 4).blk t).view.read (Elt Ideal) (scoreArr (V c main_v63) (V c main_v71) (V c main_v70)) := by
  show (cfg2.win 4).cut (grid2.coords t) ((dat2 V c).after 4 t) = _
  rw [after2_4]
  unfold out2_4
  rw [View.canon_unit_zero zero_offsets]
  simp only [View.ld_unit_zero (S := S5000x128) zero_offsets, View.ld_unit_zero (S := S1x128) zero_offsets,
    View.ld_unit_zero (S := S128x2) zero_offsets]
  funext y
  obtain ⟨p, q, rfl⟩ : ∃ (p : Fin 5000) (q : Fin 2), y = (ix2 p q : S5000x2.Idx) := ⟨y 0, y 1, eq_ix2 y⟩
  have ht : t.val < 10 := by have h := t.isLt; have hN : cfg2.N = 10 := N_2; omega
  have hp : p.val < 5000 := p.isLt
  show (k2_pay2 (F := Ideal) (iblk2 V c 0 t) (iblk2 V c 1 t) (iblk2 V c 2 t) : S5000x2.Idx → EReal) (ix2 p q)
    = scoreArr (V c main_v63) (V c main_v71) (V c main_v70) (((cfg2.win 4).blk t).view.emb (ix2 p q))
  rw [scores_tile_emb t p q ⟨t.val * 5000 + p.val, by omega⟩ rfl]
  refine (tile_scores_apply _ _ _ p q).trans ?_
  show _ = scoreAt (V c main_v63) (V c main_v71) (V c main_v70) ⟨t.val * 5000 + p.val, by omega⟩ q
  unfold scoreAt
  refine Finset.sum_congr rfl fun k _ => ?_
  rw [features_tile_apply V c t p k ⟨t.val * 5000 + p.val, by omega⟩ rfl, bias_tile_apply V c t k, link_tile_apply V c t k q]

/-- An index of the scores array is in tile t's block iff each coordinate is in the block's range on its axis. -/
theorem mem_scores_tile (t : Fin cfg2.N) (i : S50000x2.Idx) :
    i ∈ ((cfg2.win 4).blk t).view.set ↔ ∀ a : Fin 2, win2_4.index t a * S5000x2.size a ≤ (i a).val ∧ (i a).val < win2_4.index t a * S5000x2.size a + S5000x2.size a := by
  show i ∈ ((View.whole main_v72_1).slice (win2_4.rect t)).set ↔ _
  rw [View.set_slice_whole, Rect.mem_set_unit]
  exact Iff.rfl

/-- Row n lies in tile n / 5000: the ten tiles cover the scores array. -/
theorem scores_cover (i : S50000x2.Idx) :
    ∃ t : Fin cfg2.N, (cfg2.win 4).flush t = true ∧ i ∈ ((cfg2.win 4).blk t).view.set := by
  have hi0 : (i 0).val < 50000 := (i 0).isLt
  have hi1 : (i 1).val < 2 := (i 1).isLt
  have hN : cfg2.N = 10 := N_2
  refine ⟨⟨(i 0).val / 5000, by rw [hN]; omega⟩, flush2_4 _, ?_⟩
  rw [mem_scores_tile]
  obtain ⟨-, -, -, -, -, -, e0, e1⟩ := tile_indices ⟨(i 0).val / 5000, by rw [hN]; omega⟩
  intro a
  match a with
  | ⟨0, _⟩ =>
    show win2_4.index _ (0 : Fin 2) * 5000 ≤ (i 0).val ∧ (i 0).val < win2_4.index _ (0 : Fin 2) * 5000 + 5000
    rw [e0]; show (i 0).val / 5000 * 5000 ≤ (i 0).val ∧ (i 0).val < (i 0).val / 5000 * 5000 + 5000; omega
  | ⟨1, _⟩ =>
    show win2_4.index _ (1 : Fin 2) * 2 ≤ (i 1).val ∧ (i 1).val < win2_4.index _ (1 : Fin 2) * 2 + 2
    rw [e1]; omega

/-- The scores array after the region is the whole-array formula of the three input arrays as the region finds them. -/
theorem scores_array (c : Dev nD) :
    (dat2 V c).arrAt 4 cfg2.N = scoreArr (V c main_v63) (V c main_v71) (V c main_v70) :=
  (dat2 V c).arrAt_eq_of_cover 4 (scoreArr (V c main_v63) (V c main_v71) (V c main_v70)) (fun t _ => flushed_scores V c t) scores_cover

/-- The three input arrays as the region finds them, and the scores array after it, as functions of their indices. -/
abbrev agg (c : Dev nD) : S50000x128.Idx → EReal := V c main_v63
abbrev bias (c : Dev nD) : S1x128.Idx → EReal := V c main_v71
abbrev wlink (c : Dev nD) : S128x2.Idx → EReal := V c main_v70
abbrev scores (c : Dev nD) : S50000x2.Idx → EReal := (dat2 V c).arrAt 4 cfg2.N

/-- Entry (n, j) of the scores array after the region: row n of the features plus the bias row, times column j of the
    link matrix. -/
theorem scores_entry (c : Dev nD) (n : Fin 50000) (j : Fin 2) :
    scores V c (ix2 n j) = ∑ k : Fin 128, (agg V c (ix2 n k) + bias V c (ix2 (0 : Fin 1) k)) * wlink V c (ix2 k j) := by
  show ((dat2 V c).arrAt 4 cfg2.N : S50000x2.Idx → EReal) (ix2 n j) = _
  rw [scores_array]
  rfl

/-- The same, with the arrays spelt as the region's proof data and entry contents. -/
theorem scores_entry_at (c : Dev nD) (n : Fin 50000) (j : Fin 2) :
    ((dat2 V c).arrAt 4 cfg2.N : S50000x2.Idx → EReal) (ix2 n j) = scoreAt (V c main_v63) (V c main_v71) (V c main_v70) n j :=
  congrFun (scores_array V c) (ix2 n j)

end Cert.KernelIdeal.Scores

end
-- ==== Proof.NodeRow.lean ====
/-
  How a node number names a row of a table of 50000 rows when it is used as an index: a number below zero counts from
  the end (50000 is added), and the result, read as a signed number, is clamped into the table.  Both programs read
  their tables through this map, so it is stated once.
-/
import Idealize.ShloMosaic.PureOps.Ideal

namespace Cert.NodeRow

open Idealize.ShloMosaic

/-- A node number as an indexed read takes it: one below zero counts from the end of the 50000 nodes. -/
def wrap (v : BitVec 32) : BitVec 32 :=
  Scalar.select (IntOp.cmpi .slt v 0#32) (IntOp.addi v 50000#32) v

/-- The row of the 50000-row table a node number names: wrapped, read signed, clamped into the table. -/
def rowOf (v : BitVec 32) : Fin 50000 := ⟨min (wrap v).toInt.toNat (50000 - 1), by omega⟩

end Cert.NodeRow
-- ==== Proof.LibGatherEntry2.lean ====
/-
  An entry lookup in a matrix read at an index. `table[rows, cols]` for a table of `N` rows and `C` columns and
  `R` pairs (row number, column number) lowers to a gather whose start indices are an `R × 2` array: no offset axis,
  both operand axes collapsed, start index map `[0, 1]`, index vector axis 1, slice sizes `[1, 1]`.  Result element
  `e` is the table's element whose row is the start index `idx[e, 0]` and whose column is `idx[e, 1]`, each read as a
  signed number and clamped into the axis.
-/
import Idealize.ShloMosaic.Lib.ValueIdx

namespace Cert.GatherEntry2

open Idealize.ShloMosaic Idealize.ShloMosaic.ValueIdx

variable {α : Type}

/-- Those dimension numbers for a table `[N, C]`, start indices `[R, 2]` and result `[R]`. -/
abbrev entryDims (N C R : Nat)
    (wf : GatherDims.WF ⟨2, ![N, C]⟩ ⟨2, ![R, 2]⟩ ⟨1, ![R]⟩ [] [0, 1] [] [0, 1] [] 1 ![1, 1]) :
    GatherDims ⟨2, ![N, C]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

section
variable {N C R w : Nat}
  (wf : GatherDims.WF ⟨2, ![N, C]⟩ ⟨2, ![R, 2]⟩ ⟨1, ![R]⟩ [] [0, 1] [] [0, 1] [] 1 ![1, 1])
  (idx : IVec ⟨2, ![R, 2]⟩ w) (e : Fin R)

/-- On the row axis the operand index is the clamped first component of the start index. -/
theorem operand_row :
    (entryDims N C R wf).start (ix1 e) idx 0 + (entryDims N C R wf).batchCoord (ix1 e) 0
        + (entryDims N C R wf).offCoord (ix1 e) 0
      = min (idx (ix2 e (0 : Fin 2))).toInt.toNat (N - 1) := by
  rw [GatherDims.batchCoord_eq_zero _ _ _ List.not_mem_nil,
    GatherDims.offCoord_eq_zero _ _ _ (fun h => ((GatherDims.mem_sKept _ _).mp h).1 (by
      show (0 : Fin 2) ∈ [(0 : Fin 2), 1]
      decide))]
  simp only [Nat.add_zero]
  unfold GatherDims.start
  rw [dif_pos (show (0 : Fin 2) ∈ (entryDims N C R wf).startIndexMap from by
    show (0 : Fin 2) ∈ [(0 : Fin 2), 1]
    decide)]
  have hsi : (entryDims N C R wf).siIdx (ix1 e) ⟨List.idxOf (0 : Fin 2) (entryDims N C R wf).startIndexMap,
      List.idxOf_lt_length_iff.2 (by show (0 : Fin 2) ∈ [(0 : Fin 2), 1]; decide)⟩ = ix2 e (0 : Fin 2) := by
    funext b; refine Fin.ext ?_
    match b with
    | ⟨0, _⟩ => rfl
    | ⟨1, _⟩ => rfl
  rw [hsi]
  rfl

/-- On the column axis the operand index is the clamped second component of the start index. -/
theorem operand_col :
    (entryDims N C R wf).start (ix1 e) idx 1 + (entryDims N C R wf).batchCoord (ix1 e) 1
        + (entryDims N C R wf).offCoord (ix1 e) 1
      = min (idx (ix2 e (1 : Fin 2))).toInt.toNat (C - 1) := by
  rw [GatherDims.batchCoord_eq_zero _ _ _ List.not_mem_nil,
    GatherDims.offCoord_eq_zero _ _ _ (fun h => ((GatherDims.mem_sKept _ _).mp h).1 (by
      show (1 : Fin 2) ∈ [(0 : Fin 2), 1]
      decide))]
  simp only [Nat.add_zero]
  unfold GatherDims.start
  rw [dif_pos (show (1 : Fin 2) ∈ (entryDims N C R wf).startIndexMap from by
    show (1 : Fin 2) ∈ [(0 : Fin 2), 1]
    decide)]
  have hsi : (entryDims N C R wf).siIdx (ix1 e) ⟨List.idxOf (1 : Fin 2) (entryDims N C R wf).startIndexMap,
      List.idxOf_lt_length_iff.2 (by show (1 : Fin 2) ∈ [(0 : Fin 2), 1]; decide)⟩ = ix2 e (1 : Fin 2) := by
    funext b; refine Fin.ext ?_
    match b with
    | ⟨0, _⟩ => rfl
    | ⟨1, _⟩ => rfl
  rw [hsi]
  rfl

end

/-- The gather read at `e`: the table's entry at the row `idx[e, 0]` and column `idx[e, 1]` name, each read signed and
    clamped into its axis. -/
theorem gather_entry_apply {N C R w : Nat} (hN : 0 < N) (hC : 0 < C)
    (wf : GatherDims.WF ⟨2, ![N, C]⟩ ⟨2, ![R, 2]⟩ ⟨1, ![R]⟩ [] [0, 1] [] [0, 1] [] 1 ![1, 1])
    (x : (⟨2, ![N, C]⟩ : Shape).Idx → α) (idx : IVec ⟨2, ![R, 2]⟩ w) (e : Fin R) :
    Host.gather (entryDims N C R wf) x idx (ix1 e)
      = x (ix2 (⟨min (idx (ix2 e (0 : Fin 2))).toInt.toNat (N - 1), by omega⟩ : Fin N)
               (⟨min (idx (ix2 e (1 : Fin 2))).toInt.toNat (C - 1), by omega⟩ : Fin C)) := by
  unfold Host.gather
  congr 1
  funext a
  refine Fin.ext ?_
  match a with
  | ⟨0, _⟩ => exact operand_row wf idx e
  | ⟨1, _⟩ => exact operand_col wf idx e

end Cert.GatherEntry2
-- ==== Proof.LibConcatPair.lean ====
/-
  Two arrays laid side by side along one axis, read at an entry.

  Two matrices [n, a] and [n, b] concatenated along their columns give [n, c], with c = a + b by the concatenation's own
  side condition: column q < a is column q of the first, column a + j is column j of the second. The same for two
  vectors of a and b entries concatenated into one of c. Library imports only.
-/
import Idealize.ShloMosaic.Lib.Pipeline.Value
import Idealize.ShloMosaic.Lib.ValueIdx

noncomputable section

namespace Cert.LibConcatPair

open Idealize.ShloMosaic Idealize.ShloMosaic.ValueIdx

variable {α : Type}

/-- A column of the left matrix: entry (k, q) of the pair, for q = j below the first extent, is entry (k, j) of the
    first. -/
theorem cols_left {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin a) (q : Fin c) (hq : q.val = j.val) :
    concatenate ⟨2, ![n, c]⟩ 1 [⟨⟨2, ![n, a]⟩, x⟩, ⟨⟨2, ![n, b]⟩, y⟩] hc (ix2 k q) = x (ix2 k j) :=
  concatenate_pair_apply_left 1 x y hc (ix2 k q) rfl (ix2 k j) (fun d => by
    match d with
    | ⟨0, _⟩ => rfl
    | ⟨1, _⟩ => exact hq.symm)

/-- A column of the right matrix: entry (k, q) of the pair, for q = a + j, is entry (k, j) of the second. -/
theorem cols_right {n a b c : ℕ} (x : (⟨2, ![n, a]⟩ : Shape).Idx → α) (y : (⟨2, ![n, b]⟩ : Shape).Idx → α)
    (hc : Shape.Concatenates [(⟨2, ![n, a]⟩ : Shape), ⟨2, ![n, b]⟩] ⟨2, ![n, c]⟩ 1)
    (k : Fin n) (j : Fin b) (q : Fin c) (hq : q.val = a + j.val) :
    concatenate ⟨2, ![n, c]⟩ 1 [⟨⟨2, ![n, a]⟩, x⟩, ⟨⟨2, ![n, b]⟩, y⟩] hc (ix2 k q) = y (ix2 k j) :=
  concatenate_pair_apply_right 1 x y hc (ix2 k q) rfl rfl (ix2 k j) (fun d hd => by
    match d, hd with
    | ⟨0, _⟩, _ => rfl
    | ⟨1, _⟩, hd => exact (hd (Fin.ext rfl)).elim) (by show j.val + a = q.val; omega)

/-- An entry of the left vector. -/
theorem vec_left {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin a) (q : Fin c) (hq : q.val = j.val) :
    concatenate ⟨1, ![c]⟩ 0 [⟨⟨1, ![a]⟩, x⟩, ⟨⟨1, ![b]⟩, y⟩] hc (ix1 q) = x (ix1 j) :=
  concatenate_pair_apply_left 0 x y hc (ix1 q) rfl (ix1 j) (fun d => by
    match d with
    | ⟨0, _⟩ => exact hq.symm)

/-- An entry of the right vector. -/
theorem vec_right {a b c : ℕ} (x : (⟨1, ![a]⟩ : Shape).Idx → α) (y : (⟨1, ![b]⟩ : Shape).Idx → α)
    (hc : Shape.Concatenates [(⟨1, ![a]⟩ : Shape), ⟨1, ![b]⟩] ⟨1, ![c]⟩ 0)
    (j : Fin b) (q : Fin c) (hq : q.val = a + j.val) :
    concatenate ⟨1, ![c]⟩ 0 [⟨⟨1, ![a]⟩, x⟩, ⟨⟨1, ![b]⟩, y⟩] hc (ix1 q) = y (ix1 j) :=
  concatenate_pair_apply_right 0 x y hc (ix1 q) rfl rfl (ix1 j) (fun d hd => by
    match d, hd with
    | ⟨0, _⟩, hd => exact (hd (Fin.ext rfl)).elim) (by show j.val + a = q.val; omega)

end Cert.LibConcatPair

end
-- ==== Proof.KernelDecode.lean ====
/-
  The decode line of the idealized kernel, read at one scored pair.  The host joins the positive and the negative pairs
  into one list of 200000, takes from each pair (s, d) the entries (s, 0) and (d, 1) of the score table — node numbers
  below zero counted from the end, then clamped into the table, as an indexed read does —, adds the two and the bias,
  and cuts the list back into its positive and negative halves.  So output entry e of the first half is
  table(s_e, 0) + table(d_e, 1) + bias for the e-th positive pair, and of the second half the same for the e-th
  negative pair.
-/
import proofs.«153435_j21131239096607_2_alg».proof.KernelIdeal
import proofs.«153435_j21131239096607_2_alg».proof.Proof.Gen.KernelIdeal
import proofs.«153435_j21131239096607_2_alg».proof.Proof.NodeRow
import proofs.«153435_j21131239096607_2_alg».proof.Proof.LibGatherEntry2
import proofs.«153435_j21131239096607_2_alg».proof.Proof.LibConcatPair
import Idealize.ShloMosaic.Lib.Pipeline.Value
import Idealize.ShloMosaic.Lib.ValueIdx

set_option maxRecDepth 16384

noncomputable section

namespace Cert.KernelIdeal.Decode

open Cert.KernelIdeal Cert.KernelIdeal.Gen Cert.NodeRow Idealize.ShloMosaic Idealize.ShloMosaic.ValueIdx

variable (S : FVec Ideal S50000x2 .f32) (P N : IVec S2x100000 32) (bl : FVec Ideal S1 .f32)

/-! ## The stages of the line -/

/-- The positive pairs followed by the negative pairs. -/
def pairs : IVec S2x200000 32 :=
  concatenate S2x200000 1 [⟨S2x100000, P⟩, ⟨S2x100000, N⟩] concatenates_S2x100000_S2x100000_S2x200000_d1

/-- The first nodes of all pairs. -/
def firsts : IVec S200000 32 :=
  shapeCast S200000 (extractStridedSlice S1x200000 ![0, 0] (pairs P N) slices_S2x200000_S1x200000_0_0) shapeCasts_S1x200000_S200000

/-- The second nodes of all pairs. -/
def seconds : IVec S200000 32 :=
  shapeCast S200000 (extractStridedSlice S1x200000 ![1, 0] (pairs P N) slices_S2x200000_S1x200000_1_0) shapeCasts_S1x200000_S200000

/-- Node numbers with those below zero counted from the end. -/
def wrapped (v : IVec S200000 32) : IVec S200000 32 :=
  select (cmpi .slt v (broadcastInDim S200000 ![] bcast_S_S200000 (constantI S_ 32 0#32)))
    (addi v (broadcastInDim S200000 ![] bcast_S_S200000 (constantI S_ 32 50000#32))) v

/-- The (row, column) start indices: the wrapped node numbers beside a constant column number. -/
def starts (v : IVec S200000 32) (col : BitVec 32) : IVec S200000x2 32 :=
  concatenate S200000x2 1 [⟨S200000x1, broadcastInDim S200000x1 ![0] bcast_S200000_S200000x1_0 (wrapped v)⟩,
    ⟨S200000x1, broadcastInDim S200000x1 ![0] bcast_S200000_S200000x1_0 (id (broadcastInDim S200000 ![] bcast_S_S200000 (constantI S_ 32 col)))⟩]
    concatenates_S200000x1_S200000x1_S200000x2_d1

/-- All 200000 decoded values. -/
def decoded : FVec Ideal S200000 .f32 :=
  addf (addf (Host.gather gather_S50000x2_S200000x2_S200000_n_01_n_n_01_1_11 S (starts (firsts P N) 0#32))
      (Host.gather gather_S50000x2_S200000x2_S200000_n_01_n_n_01_1_11 S (starts (seconds P N) 1#32)))
    (broadcastInDim S200000 ![] bcast_S_S200000 (shapeCast S_ bl shapeCasts_S1_S_))

/-! ## The stages at an index -/

theorem pairs_left (r : Fin 2) (e : Fin 100000) (q : Fin 200000) (hq : q.val = e.val) :
    pairs P N (ix2 r q) = P (ix2 r e) :=
  Cert.LibConcatPair.cols_left (n := 2) (a := 100000) (b := 100000) (c := 200000) P N
    concatenates_S2x100000_S2x100000_S2x200000_d1 r e q hq

theorem pairs_right (r : Fin 2) (e : Fin 100000) (q : Fin 200000) (hq : q.val = 100000 + e.val) :
    pairs P N (ix2 r q) = N (ix2 r e) :=
  Cert.LibConcatPair.cols_right (n := 2) (a := 100000) (b := 100000) (c := 200000) P N
    concatenates_S2x100000_S2x100000_S2x200000_d1 r e q hq

theorem firsts_apply (q : Fin 200000) : firsts P N (ix1 q) = pairs P N (ix2 (0 : Fin 2) q) := by
  unfold firsts
  refine (shapeCast_apply _ shapeCasts_S1x200000_S200000 (ix1 q) (ix2 (0 : Fin 1) q)
    (by rewrite [Shape.rowMajor_val_two, Shape.rowMajor_val_one]; show 0 * 200000 + q.val = q.val; omega)).trans ?_
  exact extractStridedSlice_apply ![0, 0] (pairs P N) slices_S2x200000_S1x200000_0_0 (ix2 (0 : Fin 1) q) (ix2 (0 : Fin 2) q)
    (fun a => match a with
      | ⟨0, _⟩ => by show (0 : Nat) = 0 + 0; omega
      | ⟨1, _⟩ => by show q.val = 0 + q.val; omega)

theorem seconds_apply (q : Fin 200000) : seconds P N (ix1 q) = pairs P N (ix2 (1 : Fin 2) q) := by
  unfold seconds
  refine (shapeCast_apply _ shapeCasts_S1x200000_S200000 (ix1 q) (ix2 (0 : Fin 1) q)
    (by rewrite [Shape.rowMajor_val_two, Shape.rowMajor_val_one]; show 0 * 200000 + q.val = q.val; omega)).trans ?_
  exact extractStridedSlice_apply ![1, 0] (pairs P N) slices_S2x200000_S1x200000_1_0 (ix2 (0 : Fin 1) q) (ix2 (1 : Fin 2) q)
    (fun a => match a with
      | ⟨0, _⟩ => by show (1 : Nat) = 1 + 0; omega
      | ⟨1, _⟩ => by show q.val = 0 + q.val; omega)

theorem wrapped_apply (v : IVec S200000 32) (q : Fin 200000) : wrapped v (ix1 q) = wrap (v (ix1 q)) := by
  unfold wrapped wrap
  show Scalar.select (IntOp.cmpi .slt (v (ix1 q)) (broadcastInDim S200000 ![] bcast_S_S200000 (constantI S_ 32 0#32) (ix1 q)))
      (IntOp.addi (v (ix1 q)) (broadcastInDim S200000 ![] bcast_S_S200000 (constantI S_ 32 50000#32) (ix1 q))) (v (ix1 q)) = _
  rw [broadcastInDim_apply _ bcast_S_S200000 (constantI S_ 32 0#32) (ix1 q) (fun a => a.elim0) (fun a => a.elim0),
    broadcastInDim_apply _ bcast_S_S200000 (constantI S_ 32 50000#32) (ix1 q) (fun a => a.elim0) (fun a => a.elim0)]
  rfl

theorem starts_row (v : IVec S200000 32) (col : BitVec 32) (q : Fin 200000) :
    starts v col (ix2 q (0 : Fin 2)) = wrap (v (ix1 q)) := by
  unfold starts
  refine (Cert.LibConcatPair.cols_left (n := 200000) (a := 1) (b := 1) (c := 2) _ _
    concatenates_S200000x1_S200000x1_S200000x2_d1 q (0 : Fin 1) (0 : Fin 2) rfl).trans ?_
  refine (broadcastInDim_apply _ bcast_S200000_S200000x1_0 (wrapped v) (ix2 q (0 : Fin 1)) (ix1 q) (fun a => match a with
    | ⟨0, _⟩ => by show q.val = if (200000 : Nat) = 1 then 0 else q.val; rw [if_neg (by decide)])).trans ?_
  exact wrapped_apply v q

theorem starts_col (v : IVec S200000 32) (col : BitVec 32) (q : Fin 200000) :
    starts v col (ix2 q (1 : Fin 2)) = col := by
  unfold starts
  refine (Cert.LibConcatPair.cols_right (n := 200000) (a := 1) (b := 1) (c := 2) _ _
    concatenates_S200000x1_S200000x1_S200000x2_d1 q (0 : Fin 1) (1 : Fin 2) rfl).trans ?_
  refine (broadcastInDim_apply _ bcast_S200000_S200000x1_0 _ (ix2 q (0 : Fin 1)) (ix1 q) (fun a => match a with
    | ⟨0, _⟩ => by show q.val = if (200000 : Nat) = 1 then 0 else q.val; rw [if_neg (by decide)])).trans ?_
  show broadcastInDim S200000 ![] bcast_S_S200000 (constantI S_ 32 col) (ix1 q) = col
  rw [broadcastInDim_apply _ bcast_S_S200000 (constantI S_ 32 col) (ix1 q) (fun a => a.elim0) (fun a => a.elim0)]
  rfl

/-- One table lookup of the line: the entry at the wrapped, clamped node number and the constant column. -/
theorem lookup (v : IVec S200000 32) (col : BitVec 32) (j : Fin 2) (hj : min col.toInt.toNat (2 - 1) = j.val) (q : Fin 200000) :
    Host.gather gather_S50000x2_S200000x2_S200000_n_01_n_n_01_1_11 S (starts v col) (ix1 q)
      = S (ix2 (rowOf (v (ix1 q))) j) := by
  refine (Cert.GatherEntry2.gather_entry_apply (N := 50000) (C := 2) (R := 200000) (by decide) (by decide)
    gather_S50000x2_S200000x2_S200000_n_01_n_n_01_1_11.wf S (starts v col) q).trans ?_
  refine congrArg S ?_
  funext a
  refine Fin.ext ?_
  match a with
  | ⟨0, _⟩ =>
    show min (starts v col (ix2 q (0 : Fin 2))).toInt.toNat (50000 - 1) = min (wrap (v (ix1 q))).toInt.toNat (50000 - 1)
    rw [starts_row]
  | ⟨1, _⟩ =>
    show min (starts v col (ix2 q (1 : Fin 2))).toInt.toNat (2 - 1) = j.val
    rw [starts_col]; exact hj

/-- A decoded value: the first node's entry in column 0, plus the second node's in column 1, plus the bias. -/
theorem decoded_apply (q : Fin 200000) :
    decoded S P N bl (ix1 q)
      = (S (ix2 (rowOf (pairs P N (ix2 (0 : Fin 2) q))) (0 : Fin 2)) + S (ix2 (rowOf (pairs P N (ix2 (1 : Fin 2) q))) (1 : Fin 2)))
        + bl (ix1 (0 : Fin 1)) := by
  unfold decoded
  show FloatOps.addf (FloatOps.addf (Host.gather gather_S50000x2_S200000x2_S200000_n_01_n_n_01_1_11 S (starts (firsts P N) 0#32) (ix1 q))
      (Host.gather gather_S50000x2_S200000x2_S200000_n_01_n_n_01_1_11 S (starts (seconds P N) 1#32) (ix1 q)))
    (broadcastInDim S200000 ![] bcast_S_S200000 (shapeCast S_ bl shapeCasts_S1_S_) (ix1 q)) = _
  rw [lookup S (firsts P N) 0#32 (0 : Fin 2) (by decide) q, lookup S (seconds P N) 1#32 (1 : Fin 2) (by decide) q,
    firsts_apply, seconds_apply,
    broadcastInDim_apply _ bcast_S_S200000 (shapeCast S_ bl shapeCasts_S1_S_) (ix1 q) (fun a => a.elim0) (fun a => a.elim0),
    shapeCast_apply bl shapeCasts_S1_S_ (fun a => a.elim0) (ix1 (0 : Fin 1)) (by rfl)]
  rfl

/-- The positive half: output entry `e` is the `e`-th positive pair's value. -/
theorem positive_apply (e : Fin 100000) :
    extractStridedSlice S100000 ![0] (decoded S P N bl) slices_S200000_S100000_0 (ix1 e)
      = (S (ix2 (rowOf (P (ix2 (0 : Fin 2) e))) (0 : Fin 2)) + S (ix2 (rowOf (P (ix2 (1 : Fin 2) e))) (1 : Fin 2)))
        + bl (ix1 (0 : Fin 1)) := by
  have hq : (⟨e.val, by omega⟩ : Fin 200000).val = e.val := rfl
  rw [extractStridedSlice_apply ![0] (decoded S P N bl) slices_S200000_S100000_0 (ix1 e) (ix1 (⟨e.val, by omega⟩ : Fin 200000))
    (fun a => match a with | ⟨0, _⟩ => by show e.val = 0 + e.val; omega),
    decoded_apply, pairs_left P N 0 e _ hq, pairs_left P N 1 e _ hq]

/-- The negative half: output entry `e` is the `e`-th negative pair's value. -/
theorem negative_apply (e : Fin 100000) :
    extractStridedSlice S100000 ![100000] (decoded S P N bl) slices_S200000_S100000_100000 (ix1 e)
      = (S (ix2 (rowOf (N (ix2 (0 : Fin 2) e))) (0 : Fin 2)) + S (ix2 (rowOf (N (ix2 (1 : Fin 2) e))) (1 : Fin 2)))
        + bl (ix1 (0 : Fin 1)) := by
  have hq : (⟨100000 + e.val, by omega⟩ : Fin 200000).val = 100000 + e.val := rfl
  rw [extractStridedSlice_apply ![100000] (decoded S P N bl) slices_S200000_S100000_100000 (ix1 e) (ix1 (⟨100000 + e.val, by omega⟩ : Fin 200000))
    (fun a => match a with | ⟨0, _⟩ => by show 100000 + e.val = 100000 + e.val; rfl),
    decoded_apply, pairs_right P N 0 e _ hq, pairs_right P N 1 e _ hq]

end Cert.KernelIdeal.Decode

end
-- ==== Proof.StagesEnd.lean ====
/-
  The idealized kernel's last stretch.  When the scoring kernel starts its three inputs are the second layer's
  aggregate, the bias as a single row, and the 256 scoring weights laid out as two columns of 128 (column 0 the weights
  of a pair's first node, column 1 those of its second).  The kernel leaves, per node and column, the node's biased
  features against that column.  The decode line then reads two entries of that table per scored pair.  A host line
  that joins two arrays is read in two parts, the operations before the join and the rest.
-/
import proofs.«153435_j21131239096607_2_alg».proof.Proof.StagesMid
import proofs.«153435_j21131239096607_2_alg».proof.Proof.Scores
import proofs.«153435_j21131239096607_2_alg».proof.Proof.KernelDecode

set_option maxRecDepth 16384

noncomputable section

namespace Cert.KernelIdeal.Stages

open Cert.KernelIdeal Cert.KernelIdeal.Gen Cert.NodeRow
open Idealize.ShloMosaic Idealize.ShloMosaic.TcCoe Idealize.SL.Sem Idealize.ShloMosaic.StableHlo Idealize.ShloMosaic.ValueIdx
open Cert.ReferenceIdeal.Read
open scoped BigOperators

/-- A line of host operations run in two parts: the first `n`, then the rest from where those end. -/
theorem after_cut (n : Nat) (ops : List (HloOp τ sig (Elt Ideal))) (V : Valuation τ sig (Elt Ideal)) :
    StableHlo.after ops V = StableHlo.after (ops.drop n) (StableHlo.after (ops.take n) V) := by
  have happ : ∀ (l1 l2 : List (HloOp τ sig (Elt Ideal))) (V : Valuation τ sig (Elt Ideal)),
      StableHlo.after (l1 ++ l2) V = StableHlo.after l2 (StableHlo.after l1 V) := by
    intro l1
    induction l1 with
    | nil => intro l2 V; rfl
    | cons op l ih => intro l2 V; simp only [List.cons_append, StableHlo.after_cons, ih]
  rw [← happ, List.take_append_drop]

variable (m : (ℓ : Loc nD τ sig) → Buf (Elt Ideal) ℓ) (ρ : Dev nD → PrngReg) (c : Dev nD)

/-! ## The pair lists and the scoring bias are still the launched ones after the scoring kernel -/

theorem pos_a3 : W9 m ρ c (Proc.devRef .tc main_arg3) = inPos m c :=
  (W9_of_ne m ρ c main_arg3 (by decide)).trans (pos_b3 m ρ c)

theorem neg_a3 : W9 m ρ c (Proc.devRef .tc main_arg4) = inNeg m c :=
  (W9_of_ne m ρ c main_arg4 (by decide)).trans (neg_b3 m ρ c)

theorem linkb_a3 : W9 m ρ c (Proc.devRef .tc main_arg10) = inBl m c :=
  (W9_of_ne m ρ c main_arg10 (by decide)).trans (linkb_b3 m ρ c)

/-- The score table the scoring kernel leaves, and the scoring weights it was given, as arrays of extended reals. -/
abbrev scoreTable : FVec Ideal S50000x2 .f32 := W9 m ρ c (Proc.devRef .tc main_v72_1)
abbrev linkCols : FVec Ideal S128x2 .f32 := W8 m ρ c (Proc.devRef .tc main_v70)

/-! ## The scoring kernel's small inputs -/

/-- The bias as a row. -/
theorem bias_row_whole : W8 m ρ c (Proc.devRef .tc main_v71) = shapeCast S1x128 (inB2 m c) shapeCasts_S128_S1x128 := by
  show StableHlo.after hostOps2 (W7 m ρ c) (Proc.devRef .tc main_v71) = _
  after_results_simp
  rw [bias2_a2 m ρ c]
  rfl

/-- The bias as a row: entry (0, k) is the bias's entry k. -/
theorem bias_row_b3 (k : Fin 128) :
    (W8 m ρ c (Proc.devRef .tc main_v71) : S1x128.Idx → EReal) (ix2 (0 : Fin 1) k) = (inB2 m c : S128.Idx → EReal) (ix1 k) := by
  rw [bias_row_whole]
  exact shapeCast_apply (s := S128) (t := S1x128) (inB2 m c) shapeCasts_S128_S1x128 (ix2 (0 : Fin 1) k) (ix1 k)
    (by rewrite [Shape.rowMajor_val_two, Shape.rowMajor_val_one]; show k.val = 0 * 128 + k.val; omega)

/-- Before the two columns are joined: the first 128 weights as a column. -/
theorem link_first_col : StableHlo.after ((hostOps2 (F := Ideal)).take 22) (W7 m ρ c) (Proc.devRef .tc main_v68)
    = broadcastInDim S128x1 ![0] bcast_S128_S128x1_0
        (shapeCast S128 (extractStridedSlice S128x1 ![0, 0] (inWl m c) slices_S256x1_S128x1_0_0) shapeCasts_S128x1_S128) := by
  simp only [hostOps2, List.take_succ_cons, List.take_zero]
  after_results_simp
  rw [linkw_a2 m ρ c]
  rfl

/-- Before the two columns are joined: the last 128 weights as a column. -/
theorem link_second_col : StableHlo.after ((hostOps2 (F := Ideal)).take 22) (W7 m ρ c) (Proc.devRef .tc main_v69)
    = broadcastInDim S128x1 ![0] bcast_S128_S128x1_0
        (shapeCast S128 (extractStridedSlice S128x1 ![128, 0] (inWl m c) slices_S256x1_S128x1_128_0) shapeCasts_S128x1_S128) := by
  simp only [hostOps2, List.take_succ_cons, List.take_zero]
  after_results_simp
  rw [linkw_a2 m ρ c]
  rfl

/-- The scoring weights as two columns. -/
theorem link_cols_b3 : W8 m ρ c (Proc.devRef .tc main_v70)
    = concatenate S128x2 1
        [⟨S128x1, broadcastInDim S128x1 ![0] bcast_S128_S128x1_0
            (shapeCast S128 (extractStridedSlice S128x1 ![0, 0] (inWl m c) slices_S256x1_S128x1_0_0) shapeCasts_S128x1_S128)⟩,
         ⟨S128x1, broadcastInDim S128x1 ![0] bcast_S128_S128x1_0
            (shapeCast S128 (extractStridedSlice S128x1 ![128, 0] (inWl m c) slices_S256x1_S128x1_128_0) shapeCasts_S128x1_S128)⟩]
        concatenates_S128x1_S128x1_S128x2_d1 := by
  have h1 := link_first_col m ρ c
  have h2 := link_second_col m ρ c
  show StableHlo.after hostOps2 (W7 m ρ c) (Proc.devRef .tc main_v70) = _
  rw [after_cut 22]
  generalize StableHlo.after ((hostOps2 (F := Ideal)).take 22) (W7 m ρ c) = V1 at h1 h2 ⊢
  simp only [hostOps2, List.drop_succ_cons, List.drop_zero]
  after_results_simp
  rw [h1, h2]

/-- One column of the scoring weights: entry (k, j) is weight `off + k` of the 256, `off` the column's first weight. -/
theorem link_col_entry (off : Nat) (hs : S256x1.Slices ![off, 0] S128x1) (k : Fin 128) (hk : off + k.val < 256) :
    broadcastInDim S128x1 ![0] bcast_S128_S128x1_0
        (shapeCast S128 (extractStridedSlice S128x1 ![off, 0] (inWl m c) hs) shapeCasts_S128x1_S128) (ix2 k (0 : Fin 1))
      = (inWl m c : S256x1.Idx → EReal) (ix2 (⟨off + k.val, hk⟩ : Fin 256) (0 : Fin 1)) := by
  refine (broadcastInDim_apply _ bcast_S128_S128x1_0 _ (ix2 k (0 : Fin 1)) (ix1 k) (fun a => match a with
    | ⟨0, _⟩ => by show k.val = if (128 : Nat) = 1 then 0 else k.val; rw [if_neg (by decide)])).trans ?_
  refine (shapeCast_apply _ shapeCasts_S128x1_S128 (ix1 k) (ix2 k (0 : Fin 1))
    (by rewrite [Shape.rowMajor_val_two, Shape.rowMajor_val_one]; show k.val * 1 + 0 = k.val; omega)).trans ?_
  exact extractStridedSlice_apply ![off, 0] (inWl m c) hs (ix2 k (0 : Fin 1)) (ix2 (⟨off + k.val, hk⟩ : Fin 256) (0 : Fin 1))
    (fun a => match a with
      | ⟨0, _⟩ => by show off + k.val = off + k.val; rfl
      | ⟨1, _⟩ => by show (0 : Nat) = 0 + 0; rfl)

/-- Column 0 holds the first 128 weights. -/
theorem link_first_b3 (k : Fin 128) :
    linkCols m ρ c (ix2 k (0 : Fin 2))
      = (inWl m c : S256x1.Idx → EReal) (ix2 (⟨k.val, by omega⟩ : Fin 256) (0 : Fin 1)) := by
  show (W8 m ρ c (Proc.devRef .tc main_v70) : S128x2.Idx → EReal) _ = _
  rw [link_cols_b3]
  refine (Cert.LibConcatPair.cols_left (n := 128) (a := 1) (b := 1) (c := 2) _ _ concatenates_S128x1_S128x1_S128x2_d1
    k (0 : Fin 1) (0 : Fin 2) rfl).trans ?_
  refine (link_col_entry m c 0 slices_S256x1_S128x1_0_0 k (by omega)).trans ?_
  exact congrArg (inWl m c) (congrArg (fun r => ix2 r (0 : Fin 1)) (Fin.ext (Nat.zero_add _)))

/-- Column 1 holds the last 128 weights. -/
theorem link_second_b3 (k : Fin 128) :
    linkCols m ρ c (ix2 k (1 : Fin 2))
      = (inWl m c : S256x1.Idx → EReal) (ix2 (⟨128 + k.val, by omega⟩ : Fin 256) (0 : Fin 1)) := by
  show (W8 m ρ c (Proc.devRef .tc main_v70) : S128x2.Idx → EReal) _ = _
  rw [link_cols_b3]
  refine (Cert.LibConcatPair.cols_right (n := 128) (a := 1) (b := 1) (c := 2) _ _ concatenates_S128x1_S128x1_S128x2_d1
    k (0 : Fin 1) (1 : Fin 2) rfl).trans ?_
  exact link_col_entry m c 128 slices_S256x1_S128x1_128_0 k (by omega)

/-! ## After the scoring kernel -/

/-- The score table: per node and column, the node's biased second-layer features against that column of weights. -/
theorem scores_a3 (n : Fin 50000) (j : Fin 2) :
    scoreTable m ρ c (ix2 n j)
      = ∑ k : Fin 128,
          ((val_main_v91 (F := Ideal) (inX m c) (inEdges m c) (inWeight m c) (inW1 m c) (inB1 m c) (inW2 m c) : S50000x128.Idx → EReal) (ix2 n k)
            + (inB2 m c : S128.Idx → EReal) (ix1 k))
          * linkCols m ρ c (ix2 k j) := by
  have h1 : scoreTable m ρ c (ix2 n j)
      = Cert.KernelIdeal.Scores.scoreAt (V8 m ρ c main_v63) (V8 m ρ c main_v71) (V8 m ρ c main_v70) n j :=
    (congrFun (W9_arr m ρ c 4) (ix2 n j)).trans (Cert.KernelIdeal.Scores.scores_entry_at (V8 m ρ) c n j)
  refine h1.trans ?_
  unfold Cert.KernelIdeal.Scores.scoreAt
  refine Finset.sum_congr rfl fun k _ => ?_
  rw [show V8 m ρ c main_v63 = _ from aggregate_b3 m ρ c, show V8 m ρ c main_v71 (ix2 (0 : Fin 1) k) = _ from bias_row_b3 m ρ c k]

/-! ## The decode line, in three parts

Up to the first pair of start-index columns; from there to the second pair; and the rest. -/

/-- First part: the first nodes' start-index column. -/
theorem decode_first_rows : StableHlo.after ((hostOps3 (F := Ideal)).take 17) (W9 m ρ c) (Proc.devRef .tc main_v85)
    = broadcastInDim S200000x1 ![0] bcast_S200000_S200000x1_0
        (Cert.KernelIdeal.Decode.wrapped (Cert.KernelIdeal.Decode.firsts (inPos m c) (inNeg m c))) := by
  simp only [hostOps3, List.take_succ_cons, List.take_zero, List.drop_succ_cons, List.drop_zero]
  after_results_simp
  rw [pos_a3 m ρ c, neg_a3 m ρ c]
  rfl

/-- First part: the constant column 0. -/
theorem decode_first_cols : StableHlo.after ((hostOps3 (F := Ideal)).take 17) (W9 m ρ c) (Proc.devRef .tc main_v86)
    = broadcastInDim S200000x1 ![0] bcast_S200000_S200000x1_0
        (id (broadcastInDim S200000 ![] bcast_S_S200000 (constantI S_ 32 0#32))) := by
  simp only [hostOps3, List.take_succ_cons, List.take_zero, List.drop_succ_cons, List.drop_zero]
  after_results_simp

/-- First part: the second nodes of all pairs. -/
theorem decode_seconds : StableHlo.after ((hostOps3 (F := Ideal)).take 17) (W9 m ρ c) (Proc.devRef .tc main_v77)
    = Cert.KernelIdeal.Decode.seconds (inPos m c) (inNeg m c) := by
  simp only [hostOps3, List.take_succ_cons, List.take_zero, List.drop_succ_cons, List.drop_zero]
  after_results_simp
  rw [pos_a3 m ρ c, neg_a3 m ρ c]
  rfl

/-- First part: the score table and the scoring bias are not written. -/
theorem decode_table_kept : StableHlo.after ((hostOps3 (F := Ideal)).take 17) (W9 m ρ c) (Proc.devRef .tc main_v72_1) = W9 m ρ c (Proc.devRef .tc main_v72_1) := by
  simp only [hostOps3, List.take_succ_cons, List.take_zero, List.drop_succ_cons, List.drop_zero]
  after_results_simp

theorem decode_bias_kept : StableHlo.after ((hostOps3 (F := Ideal)).take 17) (W9 m ρ c) (Proc.devRef .tc main_arg10) = inBl m c := by
  simp only [hostOps3, List.take_succ_cons, List.take_zero, List.drop_succ_cons, List.drop_zero]
  after_results_simp
  exact linkb_a3 m ρ c

section Parts
variable (V : Valuation τ sig (Elt Ideal))

/-- Second part: the first nodes' lookups. -/
theorem decode_first_lookup : StableHlo.after (((hostOps3 (F := Ideal)).drop 17).take 14) V (Proc.devRef .tc main_v88)
    = Host.gather gather_S50000x2_S200000x2_S200000_n_01_n_n_01_1_11 (V (Proc.devRef .tc main_v72_1) : FVec Ideal S50000x2 .f32)
        (concatenate S200000x2 1 [⟨S200000x1, V (Proc.devRef .tc main_v85)⟩, ⟨S200000x1, V (Proc.devRef .tc main_v86)⟩]
          concatenates_S200000x1_S200000x1_S200000x2_d1) := by
  simp only [hostOps3, List.take_succ_cons, List.take_zero, List.drop_succ_cons, List.drop_zero]
  after_results_simp

/-- Second part: the second nodes' start-index column. -/
theorem decode_second_rows : StableHlo.after (((hostOps3 (F := Ideal)).drop 17).take 14) V (Proc.devRef .tc main_v96)
    = broadcastInDim S200000x1 ![0] bcast_S200000_S200000x1_0 (Cert.KernelIdeal.Decode.wrapped (V (Proc.devRef .tc main_v77))) := by
  simp only [hostOps3, List.take_succ_cons, List.take_zero, List.drop_succ_cons, List.drop_zero]
  after_results_simp
  rfl

/-- Second part: the constant column 1. -/
theorem decode_second_cols : StableHlo.after (((hostOps3 (F := Ideal)).drop 17).take 14) V (Proc.devRef .tc main_v97)
    = broadcastInDim S200000x1 ![0] bcast_S200000_S200000x1_0
        (id (broadcastInDim S200000 ![] bcast_S_S200000 (constantI S_ 32 1#32))) := by
  simp only [hostOps3, List.take_succ_cons, List.take_zero, List.drop_succ_cons, List.drop_zero]
  after_results_simp

theorem decode_table_kept2 : StableHlo.after (((hostOps3 (F := Ideal)).drop 17).take 14) V (Proc.devRef .tc main_v72_1) = V (Proc.devRef .tc main_v72_1) := by
  simp only [hostOps3, List.take_succ_cons, List.take_zero, List.drop_succ_cons, List.drop_zero]
  after_results_simp

theorem decode_bias_kept2 : StableHlo.after (((hostOps3 (F := Ideal)).drop 17).take 14) V (Proc.devRef .tc main_arg10) = V (Proc.devRef .tc main_arg10) := by
  simp only [hostOps3, List.take_succ_cons, List.take_zero, List.drop_succ_cons, List.drop_zero]
  after_results_simp

/-- Third part: the second nodes' lookups, the two sums and the cut into halves. -/
theorem decode_rest_positive : StableHlo.after (((hostOps3 (F := Ideal)).drop 17).drop 14) V (Proc.devRef .tc main_v104)
    = (extractStridedSlice S100000 ![0]
        (addf (F := Ideal) (addf (F := Ideal) (V (Proc.devRef .tc main_v88) : FVec Ideal S200000 .f32)
            (Host.gather gather_S50000x2_S200000x2_S200000_n_01_n_n_01_1_11 (V (Proc.devRef .tc main_v72_1) : FVec Ideal S50000x2 .f32)
              (concatenate S200000x2 1 [⟨S200000x1, V (Proc.devRef .tc main_v96)⟩, ⟨S200000x1, V (Proc.devRef .tc main_v97)⟩]
                concatenates_S200000x1_S200000x1_S200000x2_d1)))
          (broadcastInDim S200000 ![] bcast_S_S200000 (shapeCast S_ (V (Proc.devRef .tc main_arg10) : FVec Ideal S1 .f32) shapeCasts_S1_S_)))
        slices_S200000_S100000_0 : FVec Ideal S100000 .f32) := by
  simp only [hostOps3, List.take_succ_cons, List.take_zero, List.drop_succ_cons, List.drop_zero]
  after_results_simp
  rfl

theorem decode_rest_negative : StableHlo.after (((hostOps3 (F := Ideal)).drop 17).drop 14) V (Proc.devRef .tc main_v105)
    = (extractStridedSlice S100000 ![100000]
        (addf (F := Ideal) (addf (F := Ideal) (V (Proc.devRef .tc main_v88) : FVec Ideal S200000 .f32)
            (Host.gather gather_S50000x2_S200000x2_S200000_n_01_n_n_01_1_11 (V (Proc.devRef .tc main_v72_1) : FVec Ideal S50000x2 .f32)
              (concatenate S200000x2 1 [⟨S200000x1, V (Proc.devRef .tc main_v96)⟩, ⟨S200000x1, V (Proc.devRef .tc main_v97)⟩]
                concatenates_S200000x1_S200000x1_S200000x2_d1)))
          (broadcastInDim S200000 ![] bcast_S_S200000 (shapeCast S_ (V (Proc.devRef .tc main_arg10) : FVec Ideal S1 .f32) shapeCasts_S1_S_)))
        slices_S200000_S100000_100000 : FVec Ideal S100000 .f32) := by
  simp only [hostOps3, List.take_succ_cons, List.take_zero, List.drop_succ_cons, List.drop_zero]
  after_results_simp
  rfl

end Parts

/-! ## The results -/

/-- The first result is the positive half of the decoded list. -/
theorem result_positive : W10 m ρ c (Proc.devRef .tc main_v104)
    = extractStridedSlice S100000 ![0]
        (Cert.KernelIdeal.Decode.decoded (scoreTable m ρ c) (inPos m c) (inNeg m c) (inBl m c))
        slices_S200000_S100000_0 := by
  show StableHlo.after hostOps3 (W9 m ρ c) (Proc.devRef .tc main_v104) = _
  rw [after_cut 17, after_cut 14 (List.drop 17 hostOps3)]
  rw [decode_rest_positive, decode_first_lookup, decode_second_rows, decode_second_cols, decode_table_kept2, decode_bias_kept2,
    decode_first_rows m ρ c, decode_first_cols m ρ c, decode_seconds m ρ c, decode_table_kept m ρ c, decode_bias_kept m ρ c]
  rfl

/-- The second result is the negative half of the decoded list. -/
theorem result_negative : W10 m ρ c (Proc.devRef .tc main_v105)
    = extractStridedSlice S100000 ![100000]
        (Cert.KernelIdeal.Decode.decoded (scoreTable m ρ c) (inPos m c) (inNeg m c) (inBl m c))
        slices_S200000_S100000_100000 := by
  show StableHlo.after hostOps3 (W9 m ρ c) (Proc.devRef .tc main_v105) = _
  rw [after_cut 17, after_cut 14 (List.drop 17 hostOps3)]
  rw [decode_rest_negative, decode_first_lookup, decode_second_rows, decode_second_cols, decode_table_kept2, decode_bias_kept2,
    decode_first_rows m ρ c, decode_first_cols m ρ c, decode_seconds m ρ c, decode_table_kept m ρ c, decode_bias_kept m ρ c]
  rfl

/-- A node's score against one half of the weights: its biased second-layer features times that half. -/
theorem score_first (n : Fin 50000) :
    scoreTable m ρ c (ix2 n (0 : Fin 2))
      = ∑ k : Fin 128,
          (val_main_v94 (F := Ideal) (inX m c) (inEdges m c) (inWeight m c) (inW1 m c) (inB1 m c) (inW2 m c) (inB2 m c) : S50000x128.Idx → EReal) (ix2 n k)
          * (inWl m c : S256x1.Idx → EReal) (ix2 (⟨k.val, by omega⟩ : Fin 256) (0 : Fin 1)) := by
  rw [scores_a3]
  refine Finset.sum_congr rfl fun k _ => ?_
  rw [link_first_b3, val_main_v94_apply, val_main_v93_apply, val_main_v92_apply]
  have hi : idx_main_v92 (idx_main_v93 (ix2 n k)) = ix1 k := funext fun a => Fin.ext (by
    match a with
    | ⟨0, _⟩ => rfl)
  rw [hi]
  rfl

theorem score_second (n : Fin 50000) :
    scoreTable m ρ c (ix2 n (1 : Fin 2))
      = ∑ k : Fin 128,
          (val_main_v94 (F := Ideal) (inX m c) (inEdges m c) (inWeight m c) (inW1 m c) (inB1 m c) (inW2 m c) (inB2 m c) : S50000x128.Idx → EReal) (ix2 n k)
          * (inWl m c : S256x1.Idx → EReal) (ix2 (⟨128 + k.val, by omega⟩ : Fin 256) (0 : Fin 1)) := by
  rw [scores_a3]
  refine Finset.sum_congr rfl fun k _ => ?_
  rw [link_second_b3, val_main_v94_apply, val_main_v93_apply, val_main_v92_apply]
  have hi : idx_main_v92 (idx_main_v93 (ix2 n k)) = ix1 k := funext fun a => Fin.ext (by
    match a with
    | ⟨0, _⟩ => rfl)
  rw [hi]
  rfl

end Cert.KernelIdeal.Stages

end
-- ==== Proof.LibGatherRow.lean ====
/-
  A row lookup read at an index. `table[idx]` for a table of `N` rows of `D` columns and `R` row numbers lowers to a
  gather whose start indices are the row numbers as an `R × 1` array: offset axis 1, operand axis 0 collapsed, start
  index map `[0]`, index vector axis 1, slice sizes `[1, D]`. Result element `(e, c)` is the table's element in
  column `c` of the row that the start index `idx[e, 0]` names, read as a signed number and clamped into `[0, N − 1]`.
-/
import Idealize.ShloMosaic.Lib.ValueIdx

namespace Cert.GatherRow

open Idealize.ShloMosaic Idealize.ShloMosaic.ValueIdx

variable {α : Type}

/-- Those dimension numbers for a table `[N, D]`, start indices `[R, 1]` and result `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (e : Fin R) (c : Fin D)

/-- On the table's row axis the operand index is the clamped start index: the axis is collapsed and there is no
    batching. -/
theorem operand_row :
    (rowDims N D R wf).start (ix2 e c) idx 0 + (rowDims N D R wf).batchCoord (ix2 e c) 0
        + (rowDims N D R wf).offCoord (ix2 e c) 0
      = min (idx (ix2 e (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 e c) ⟨List.idxOf (0 : Fin 2) (rowDims N D R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the table's column axis the operand index is the result's column: the start index map does not name the axis,
    and it is the one offset axis. -/
theorem operand_col :
    (rowDims N D R wf).start (ix2 e c) idx 1 + (rowDims N D R wf).batchCoord (ix2 e c) 1
        + (rowDims N D R wf).offCoord (ix2 e c) 1
      = c.val := by
  have h1 : (1 : Fin 2) ∉ (rowDims N D R wf).startIndexMap := by
    show (1 : Fin 2) ∉ [(0 : Fin 2)]
    decide
  have hk : (1 : Fin 2) ∈ (rowDims N D R wf).sKept :=
    ((GatherDims.mem_sKept _ _).mpr ⟨by show (1 : Fin 2) ∉ [(0 : Fin 2)]; decide, List.not_mem_nil⟩)
  rw [GatherDims.batchCoord_eq_zero _ _ _ List.not_mem_nil]
  unfold GatherDims.start GatherDims.offCoord
  rw [dif_neg h1, dif_pos hk]
  simp only [Nat.zero_add]
  rfl

end

/-- The gather read at `(e, c)`: column `c` of the row the start index `idx[e, 0]` names, read signed and clamped
    into `[0, N − 1]`. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (c : Fin D) :
    Host.gather (rowDims N D R wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact operand_row wf idx e c
  | ⟨1, _⟩ => exact operand_col wf idx e c

/-- A start index whose unsigned value is below the table's height names that row: read signed it is its unsigned
    value, and the clamp leaves it. -/
theorem clamp_of_lt {N : Nat} (hN : N ≤ 2 ^ 31) (v : BitVec 32) (h : v.toNat < N) :
    min v.toInt.toNat (N - 1) = v.toNat := by
  have e : v.toInt = (v.toNat : Int) := by
    rw [BitVec.toInt_eq_toNat_cond]
    split
    · rfl
    · omega
  rw [e, Int.toNat_natCast]
  omega

end Cert.GatherRow
-- ==== Proof.RefDecode.lean ====
/-
  The reference's decode read at one scored pair.  For the e-th pair (s, d) of a list the reference looks up the two
  nodes' rows of the second layer's features — node numbers below zero counted from the end, then clamped into the
  table —, joins them into one row of 256, multiplies it with the 256 scoring weights and adds the bias.  So its
  output entry e is  Σ_q joined(e, q) · weight(q) + bias,  where joined(e, q) is feature q of node s for q < 128 and
  feature q − 128 of node d above.
-/
import proofs.«153435_j21131239096607_2_alg».proof.Proof.Gen.ReferenceIdeal.Read
import proofs.«153435_j21131239096607_2_alg».proof.Proof.NodeRow
import proofs.«153435_j21131239096607_2_alg».proof.Proof.LibGatherRow
import proofs.«153435_j21131239096607_2_alg».proof.Proof.LibConcatPair

set_option maxRecDepth 16384

noncomputable section

namespace Cert.ReferenceIdeal.Decode

open Cert.ReferenceIdeal Cert.ReferenceIdeal.Gen Cert.ReferenceIdeal.Read Cert.NodeRow Idealize.ShloMosaic Idealize.ShloMosaic.ValueIdx
open scoped BigOperators

variable (x0 : (⟨S50000x128, .f32⟩ : BufTy).Contents (Elt Ideal)) (x1 : (⟨S2x640000, .i32⟩ : BufTy).Contents (Elt Ideal))
  (x2 : (⟨S640000, .f32⟩ : BufTy).Contents (Elt Ideal)) (x3 x4 : (⟨S2x100000, .i32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S256x1, .f32⟩ : BufTy).Contents (Elt Ideal)) (x10 : (⟨S1, .f32⟩ : BufTy).Contents (Elt Ideal))

/-- The second layer's features, one row per node. -/
abbrev feats2 : (⟨S50000x128, .f32⟩ : BufTy).Contents (Elt Ideal) := val_main_v94 (F := Ideal) x0 x1 x2 x5 x6 x7 x8

/-! ## The positive pairs -/

/-- The start index of that lookup is the pair's first node number, wrapped. -/
theorem pos_first_start (e : Fin 100000) :
    val_main_v104 (F := Ideal) x3 (ix2 e (0 : Fin 1)) = wrap (x3 (ix2 (0 : Fin 2) e)) := by
  rw [val_main_v104_apply, val_main_v103_apply, val_main_v100_apply, val_main_v102_apply, val_main_v99_apply,
    val_main_v101_apply, val_main_c_20_apply, val_main_c_21_apply, val_main_v96_apply, val_main_v95_apply]
  have hi : idx_main_v95 (idx_main_v96 (idx_main_v104 (ix2 e (0 : Fin 1)))) = ix2 (0 : Fin 2) e :=
    funext fun a => Fin.ext (by
      match a with
      | ⟨0, _⟩ => rfl
      | ⟨1, _⟩ => exact Nat.mod_eq_of_lt e.isLt)
  rw [hi]
  rfl

/-- The start index of that lookup is the pair's second node number, wrapped. -/
theorem pos_second_start (e : Fin 100000) :
    val_main_v111 (F := Ideal) x3 (ix2 e (0 : Fin 1)) = wrap (x3 (ix2 (1 : Fin 2) e)) := by
  rw [val_main_v111_apply, val_main_v110_apply, val_main_v107_apply, val_main_v109_apply, val_main_v106_apply,
    val_main_v108_apply, val_main_c_22_apply, val_main_c_23_apply, val_main_v98_apply, val_main_v97_apply]
  have hi : idx_main_v97 (idx_main_v98 (idx_main_v111 (ix2 e (0 : Fin 1)))) = ix2 (1 : Fin 2) e :=
    funext fun a => Fin.ext (by
      match a with
      | ⟨0, _⟩ => rfl
      | ⟨1, _⟩ => exact Nat.mod_eq_of_lt e.isLt)
  rw [hi]
  rfl

/-- The lower half of the joined row is the first node's features. -/
theorem pos_joined_lower (e : Fin 100000) (k : Fin 128) (q : Fin 256) (hq : q.val = k.val) :
    val_main_v113 (F := Ideal) x0 x1 x2 x3 x5 x6 x7 x8 (ix2 e q)
      = feats2 x0 x1 x2 x5 x6 x7 x8 (ix2 (rowOf (x3 (ix2 (0 : Fin 2) e))) k) := by
  unfold val_main_v113
  refine (Cert.LibConcatPair.cols_left (n := 100000) (a := 128) (b := 128) (c := 256) _ _
    concatenates_S100000x128_S100000x128_S100000x256_d1 e k q hq).trans ?_
  unfold val_main_v105
  refine (Cert.GatherRow.gather_row_apply (N := 50000) (D := 128) (R := 100000) (by decide)
    gather_S50000x128_S100000x1_S100000x128_1_0_n_n_0_1_1128.wf _ (val_main_v104 (F := Ideal) x3) e k).trans ?_
  refine congrArg (feats2 x0 x1 x2 x5 x6 x7 x8) (congrArg (fun r => ix2 r k) (Fin.ext ?_))
  show min (val_main_v104 (F := Ideal) x3 (ix2 e (0 : Fin 1))).toInt.toNat (50000 - 1) = min (wrap (x3 (ix2 (0 : Fin 2) e))).toInt.toNat (50000 - 1)
  rw [pos_first_start]

/-- The upper half of the joined row is the second node's features. -/
theorem pos_joined_upper (e : Fin 100000) (k : Fin 128) (q : Fin 256) (hq : q.val = 128 + k.val) :
    val_main_v113 (F := Ideal) x0 x1 x2 x3 x5 x6 x7 x8 (ix2 e q)
      = feats2 x0 x1 x2 x5 x6 x7 x8 (ix2 (rowOf (x3 (ix2 (1 : Fin 2) e))) k) := by
  unfold val_main_v113
  refine (Cert.LibConcatPair.cols_right (n := 100000) (a := 128) (b := 128) (c := 256) _ _
    concatenates_S100000x128_S100000x128_S100000x256_d1 e k q hq).trans ?_
  unfold val_main_v112
  refine (Cert.GatherRow.gather_row_apply (N := 50000) (D := 128) (R := 100000) (by decide)
    gather_S50000x128_S100000x1_S100000x128_1_0_n_n_0_1_1128.wf _ (val_main_v111 (F := Ideal) x3) e k).trans ?_
  refine congrArg (feats2 x0 x1 x2 x5 x6 x7 x8) (congrArg (fun r => ix2 r k) (Fin.ext ?_))
  show min (val_main_v111 (F := Ideal) x3 (ix2 e (0 : Fin 1))).toInt.toNat (50000 - 1) = min (wrap (x3 (ix2 (1 : Fin 2) e))).toInt.toNat (50000 - 1)
  rw [pos_second_start]

/-- Output entry `e`: the joined row against the scoring weights, plus the bias. -/
theorem positive_apply (e : Fin 100000) :
    val_main_v118 (F := Ideal) x0 x1 x2 x3 x5 x6 x7 x8 x9 x10 (ix1 e)
      = (∑ q : Fin 256, val_main_v113 (F := Ideal) x0 x1 x2 x3 x5 x6 x7 x8 (ix2 e q) * x9 (ix2 q (0 : Fin 1))) + x10 (ix1 (0 : Fin 1)) := by
  rw [val_main_v118_apply, val_main_v117_apply, val_main_v114_apply, val_main_v116_apply, val_main_v115_apply]
  have hl : ∀ q : Fin 256, lidx_main_v114 (idx_main_v118 (ix1 e)) q = ix2 e q := fun q => funext fun a => Fin.ext (by
    match a with
    | ⟨0, _⟩ => exact Nat.div_one _
    | ⟨1, _⟩ => rfl)
  have hr : ∀ q : Fin 256, ridx_main_v114 (idx_main_v118 (ix1 e)) q = ix2 q (0 : Fin 1) := fun q => funext fun a => Fin.ext (by
    match a with
    | ⟨0, _⟩ => rfl
    | ⟨1, _⟩ => rfl)
  have hb : idx_main_v115 (idx_main_v116 (idx_main_v118 (ix1 e))) = ix1 (0 : Fin 1) := funext fun a => Fin.ext (by
    match a with
    | ⟨0, _⟩ => rfl)
  simp only [hl, hr, hb]
  rfl

/-! ## The negative pairs -/

/-- The start index of that lookup is the pair's first node number, wrapped. -/
theorem neg_first_start (e : Fin 100000) :
    val_main_v128 (F := Ideal) x4 (ix2 e (0 : Fin 1)) = wrap (x4 (ix2 (0 : Fin 2) e)) := by
  rw [val_main_v128_apply, val_main_v127_apply, val_main_v124_apply, val_main_v126_apply, val_main_v123_apply,
    val_main_v125_apply, val_main_c_24_apply, val_main_c_25_apply, val_main_v120_apply, val_main_v119_apply]
  have hi : idx_main_v119 (idx_main_v120 (idx_main_v128 (ix2 e (0 : Fin 1)))) = ix2 (0 : Fin 2) e :=
    funext fun a => Fin.ext (by
      match a with
      | ⟨0, _⟩ => rfl
      | ⟨1, _⟩ => exact Nat.mod_eq_of_lt e.isLt)
  rw [hi]
  rfl

/-- The start index of that lookup is the pair's second node number, wrapped. -/
theorem neg_second_start (e : Fin 100000) :
    val_main_v135 (F := Ideal) x4 (ix2 e (0 : Fin 1)) = wrap (x4 (ix2 (1 : Fin 2) e)) := by
  rw [val_main_v135_apply, val_main_v134_apply, val_main_v131_apply, val_main_v133_apply, val_main_v130_apply,
    val_main_v132_apply, val_main_c_26_apply, val_main_c_27_apply, val_main_v122_apply, val_main_v121_apply]
  have hi : idx_main_v121 (idx_main_v122 (idx_main_v135 (ix2 e (0 : Fin 1)))) = ix2 (1 : Fin 2) e :=
    funext fun a => Fin.ext (by
      match a with
      | ⟨0, _⟩ => rfl
      | ⟨1, _⟩ => exact Nat.mod_eq_of_lt e.isLt)
  rw [hi]
  rfl

/-- The lower half of the joined row is the first node's features. -/
theorem neg_joined_lower (e : Fin 100000) (k : Fin 128) (q : Fin 256) (hq : q.val = k.val) :
    val_main_v137 (F := Ideal) x0 x1 x2 x4 x5 x6 x7 x8 (ix2 e q)
      = feats2 x0 x1 x2 x5 x6 x7 x8 (ix2 (rowOf (x4 (ix2 (0 : Fin 2) e))) k) := by
  unfold val_main_v137
  refine (Cert.LibConcatPair.cols_left (n := 100000) (a := 128) (b := 128) (c := 256) _ _
    concatenates_S100000x128_S100000x128_S100000x256_d1 e k q hq).trans ?_
  unfold val_main_v129
  refine (Cert.GatherRow.gather_row_apply (N := 50000) (D := 128) (R := 100000) (by decide)
    gather_S50000x128_S100000x1_S100000x128_1_0_n_n_0_1_1128.wf _ (val_main_v128 (F := Ideal) x4) e k).trans ?_
  refine congrArg (feats2 x0 x1 x2 x5 x6 x7 x8) (congrArg (fun r => ix2 r k) (Fin.ext ?_))
  show min (val_main_v128 (F := Ideal) x4 (ix2 e (0 : Fin 1))).toInt.toNat (50000 - 1) = min (wrap (x4 (ix2 (0 : Fin 2) e))).toInt.toNat (50000 - 1)
  rw [neg_first_start]

/-- The upper half of the joined row is the second node's features. -/
theorem neg_joined_upper (e : Fin 100000) (k : Fin 128) (q : Fin 256) (hq : q.val = 128 + k.val) :
    val_main_v137 (F := Ideal) x0 x1 x2 x4 x5 x6 x7 x8 (ix2 e q)
      = feats2 x0 x1 x2 x5 x6 x7 x8 (ix2 (rowOf (x4 (ix2 (1 : Fin 2) e))) k) := by
  unfold val_main_v137
  refine (Cert.LibConcatPair.cols_right (n := 100000) (a := 128) (b := 128) (c := 256) _ _
    concatenates_S100000x128_S100000x128_S100000x256_d1 e k q hq).trans ?_
  unfold val_main_v136
  refine (Cert.GatherRow.gather_row_apply (N := 50000) (D := 128) (R := 100000) (by decide)
    gather_S50000x128_S100000x1_S100000x128_1_0_n_n_0_1_1128.wf _ (val_main_v135 (F := Ideal) x4) e k).trans ?_
  refine congrArg (feats2 x0 x1 x2 x5 x6 x7 x8) (congrArg (fun r => ix2 r k) (Fin.ext ?_))
  show min (val_main_v135 (F := Ideal) x4 (ix2 e (0 : Fin 1))).toInt.toNat (50000 - 1) = min (wrap (x4 (ix2 (1 : Fin 2) e))).toInt.toNat (50000 - 1)
  rw [neg_second_start]

/-- Output entry `e`: the joined row against the scoring weights, plus the bias. -/
theorem negative_apply (e : Fin 100000) :
    val_main_v142 (F := Ideal) x0 x1 x2 x4 x5 x6 x7 x8 x9 x10 (ix1 e)
      = (∑ q : Fin 256, val_main_v137 (F := Ideal) x0 x1 x2 x4 x5 x6 x7 x8 (ix2 e q) * x9 (ix2 q (0 : Fin 1))) + x10 (ix1 (0 : Fin 1)) := by
  rw [val_main_v142_apply, val_main_v141_apply, val_main_v138_apply, val_main_v140_apply, val_main_v139_apply]
  have hl : ∀ q : Fin 256, lidx_main_v138 (idx_main_v142 (ix1 e)) q = ix2 e q := fun q => funext fun a => Fin.ext (by
    match a with
    | ⟨0, _⟩ => exact Nat.div_one _
    | ⟨1, _⟩ => rfl)
  have hr : ∀ q : Fin 256, ridx_main_v138 (idx_main_v142 (ix1 e)) q = ix2 q (0 : Fin 1) := fun q => funext fun a => Fin.ext (by
    match a with
    | ⟨0, _⟩ => rfl
    | ⟨1, _⟩ => rfl)
  have hb : idx_main_v139 (idx_main_v140 (idx_main_v142 (ix1 e))) = ix1 (0 : Fin 1) := funext fun a => Fin.ext (by
    match a with
    | ⟨0, _⟩ => rfl)
  simp only [hl, hr, hb]
  rfl

end Cert.ReferenceIdeal.Decode

end
-- ==== Proof.DecodeLaw.lean ====
/-
  The law that joins the two decodings of a scored node pair.  One side concatenates the two nodes' 128 features into a
  row of 256 and takes its product with the 256 scoring weights; the other scores each node's features against its own
  half of the weights and adds the two.  A sum over 256 terms is the sum over the first 128 plus the sum over the last
  128: this holds in any commutative monoid, so on the extended reals it asks nothing of the terms — infinite
  features or weights included.
-/
import Mathlib.Data.EReal.Basic
import Mathlib.Algebra.BigOperators.Fin

open scoped BigOperators

namespace Cert.DecodeLaw

/-- A sum over 256 indices is the sum over the lower half plus the sum over the upper half. -/
theorem sum_halves {M : Type} [AddCommMonoid M] (f : Fin 256 → M) :
    ∑ q : Fin 256, f q
      = (∑ k : Fin 128, f ⟨k.val, by omega⟩) + ∑ k : Fin 128, f ⟨128 + k.val, by omega⟩ :=
  Fin.sum_univ_add (a := 128) (b := 128) f

/-- The product of the joined row `zc` (its lower half the first node's features `zs`, its upper half the second
    node's `zd`) with the weights `wl`, plus the bias, is the first node's score against the lower weights plus the
    second's against the upper weights, plus the bias. -/
theorem joined_row (zs zd : Fin 128 → EReal) (zc wl : Fin 256 → EReal) (b : EReal)
    (hl : ∀ k : Fin 128, zc ⟨k.val, by omega⟩ = zs k) (hr : ∀ k : Fin 128, zc ⟨128 + k.val, by omega⟩ = zd k) :
    (∑ q : Fin 256, zc q * wl q) + b
      = ((∑ k : Fin 128, zs k * wl ⟨k.val, by omega⟩) + ∑ k : Fin 128, zd k * wl ⟨128 + k.val, by omega⟩) + b := by
  rw [sum_halves (fun q => zc q * wl q)]
  simp only [hl, hr]

end Cert.DecodeLaw
-- ==== Proof.Bridge.lean ====
/-
  The two programs' results are one function of the launched arrays.  Entry e of the kernel's first result is
  table(s, 0) + table(d, 1) + bias for the e-th positive pair (s, d), where table(n, j) is node n's biased second-layer
  features against half j of the 256 scoring weights; entry e of the reference's is the two nodes' features joined into
  a row of 256 against all the weights, plus the bias.  A sum over 256 is the sum over its two halves, so the two
  agree — with no finiteness asked of anything, since only the commutative-monoid laws of addition are used.  The second
  result is the same over the negative pairs.
-/
import proofs.«153435_j21131239096607_2_alg».proof.Proof.StagesEnd
import proofs.«153435_j21131239096607_2_alg».proof.Proof.RefDecode
import proofs.«153435_j21131239096607_2_alg».proof.Proof.DecodeLaw

set_option maxRecDepth 16384

noncomputable section

namespace Cert.KernelIdeal.Stages

open Cert.KernelIdeal Cert.KernelIdeal.Gen Cert.NodeRow
open Idealize.ShloMosaic Idealize.ShloMosaic.TcCoe Idealize.SL.Sem Idealize.ShloMosaic.StableHlo Idealize.ShloMosaic.ValueIdx
open Cert.ReferenceIdeal.Read
open scoped BigOperators

variable (m : (ℓ : Loc nD τ sig) → Buf (Elt Ideal) ℓ) (ρ : Dev nD → PrngReg) (c : Dev nD)

/-- The kernel's first result is the reference's first result as a function of the launched arrays. -/
theorem positive_result : W10 m ρ c (Proc.devRef .tc main_v104) = val_main_v118 (F := Ideal) (inX m c) (inEdges m c) (inWeight m c) (inPos m c) (inW1 m c) (inB1 m c) (inW2 m c) (inB2 m c) (inWl m c) (inBl m c) := by
  rw [result_positive m ρ c]
  funext i
  obtain ⟨e, rfl⟩ : ∃ e : Fin 100000, i = ix1 e := ⟨i 0, eq_ix1 i⟩
  have hK := Cert.KernelIdeal.Decode.positive_apply (scoreTable m ρ c) (inPos m c) (inNeg m c) (inBl m c) e
  rw [score_first m ρ c, score_second m ρ c] at hK
  have hR := Cert.ReferenceIdeal.Decode.positive_apply (inX m c) (inEdges m c) (inWeight m c) (inPos m c) (inW1 m c) (inB1 m c) (inW2 m c)
    (inB2 m c) (inWl m c) (inBl m c) e
  have hL := Cert.DecodeLaw.joined_row
    (fun k => val_main_v94 (F := Ideal) (inX m c) (inEdges m c) (inWeight m c) (inW1 m c) (inB1 m c) (inW2 m c) (inB2 m c) (ix2 (rowOf (inPos m c (ix2 (0 : Fin 2) e))) k))
    (fun k => val_main_v94 (F := Ideal) (inX m c) (inEdges m c) (inWeight m c) (inW1 m c) (inB1 m c) (inW2 m c) (inB2 m c) (ix2 (rowOf (inPos m c (ix2 (1 : Fin 2) e))) k))
    (fun q => val_main_v113 (F := Ideal) (inX m c) (inEdges m c) (inWeight m c) (inPos m c) (inW1 m c) (inB1 m c) (inW2 m c) (inB2 m c) (ix2 e q))
    (fun q => inWl m c (ix2 q (0 : Fin 1)))
    (inBl m c (ix1 (0 : Fin 1)))
    (fun k => Cert.ReferenceIdeal.Decode.pos_joined_lower _ _ _ _ _ _ _ _ e k _ rfl)
    (fun k => Cert.ReferenceIdeal.Decode.pos_joined_upper _ _ _ _ _ _ _ _ e k _ rfl)
  exact hK.trans (hL.symm.trans hR.symm)

/-- The kernel's second result is the reference's second result as a function of the launched arrays. -/
theorem negative_result : W10 m ρ c (Proc.devRef .tc main_v105) = val_main_v142 (F := Ideal) (inX m c) (inEdges m c) (inWeight m c) (inNeg m c) (inW1 m c) (inB1 m c) (inW2 m c) (inB2 m c) (inWl m c) (inBl m c) := by
  rw [result_negative m ρ c]
  funext i
  obtain ⟨e, rfl⟩ : ∃ e : Fin 100000, i = ix1 e := ⟨i 0, eq_ix1 i⟩
  have hK := Cert.KernelIdeal.Decode.negative_apply (scoreTable m ρ c) (inPos m c) (inNeg m c) (inBl m c) e
  rw [score_first m ρ c, score_second m ρ c] at hK
  have hR := Cert.ReferenceIdeal.Decode.negative_apply (inX m c) (inEdges m c) (inWeight m c) (inNeg m c) (inW1 m c) (inB1 m c) (inW2 m c)
    (inB2 m c) (inWl m c) (inBl m c) e
  have hL := Cert.DecodeLaw.joined_row
    (fun k => val_main_v94 (F := Ideal) (inX m c) (inEdges m c) (inWeight m c) (inW1 m c) (inB1 m c) (inW2 m c) (inB2 m c) (ix2 (rowOf (inNeg m c (ix2 (0 : Fin 2) e))) k))
    (fun k => val_main_v94 (F := Ideal) (inX m c) (inEdges m c) (inWeight m c) (inW1 m c) (inB1 m c) (inW2 m c) (inB2 m c) (ix2 (rowOf (inNeg m c (ix2 (1 : Fin 2) e))) k))
    (fun q => val_main_v137 (F := Ideal) (inX m c) (inEdges m c) (inWeight m c) (inNeg m c) (inW1 m c) (inB1 m c) (inW2 m c) (inB2 m c) (ix2 e q))
    (fun q => inWl m c (ix2 q (0 : Fin 1)))
    (inBl m c (ix1 (0 : Fin 1)))
    (fun k => Cert.ReferenceIdeal.Decode.neg_joined_lower _ _ _ _ _ _ _ _ e k _ rfl)
    (fun k => Cert.ReferenceIdeal.Decode.neg_joined_upper _ _ _ _ _ _ _ _ e k _ rfl)
  exact hK.trans (hL.symm.trans hR.symm)

end Cert.KernelIdeal.Stages

end
-- ==== Proof.lean ====
/-
  The certificate of a two-layer graph convolution with a pair-scoring head, computed by three kernels among host lines,
  against its plain reference.  The three frames: both printed kernels run by their generated frame certificates, and
  the reference by its generated run.  The idealization rewrote nothing, so that conjunct is trivial.  The value claim:
  the idealized kernel's run leaves every buffer at the fold of its segments (Proof/KernelRun.lean); read boundary by
  boundary that fold gives the reference's own stages up to the second layer's aggregate (Proof/StagesStart.lean,
  StagesMid.lean, over the projection kernels' products, Proof/Projection.lean), then the score table (Proof/Scores.lean,
  StagesEnd.lean) and the decode line (Proof/KernelDecode.lean); the reference's decode is read in Proof/RefDecode.lean,
  and the two meet by splitting a sum over 256 into its halves (Proof/DecodeLaw.lean, Proof/Bridge.lean).
-/
import proofs.«153435_j21131239096607_2_alg».proof.Defs
import proofs.«153435_j21131239096607_2_alg».proof.Proof.Gen.Kernel
import proofs.«153435_j21131239096607_2_alg».proof.Proof.Gen.Kernel.Frame
import proofs.«153435_j21131239096607_2_alg».proof.Proof.Gen.KernelIdeal
import proofs.«153435_j21131239096607_2_alg».proof.Proof.Gen.KernelIdeal.Frame
import proofs.«153435_j21131239096607_2_alg».proof.Proof.Gen.ReferenceIdeal
import proofs.«153435_j21131239096607_2_alg».proof.Proof.Gen.ReferenceIdeal.Run
import proofs.«153435_j21131239096607_2_alg».proof.Proof.Gen.ReferenceIdeal.Read
import proofs.«153435_j21131239096607_2_alg».proof.Proof.Gen.Pre_finite_inputs
import proofs.«153435_j21131239096607_2_alg».proof.Proof.KernelRun
import proofs.«153435_j21131239096607_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs run from memories that agree on the arguments; the kernel's two results are what its
    segments' fold leaves, and the reference's two results are the same functions of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v104),
    fun c => Cert.KernelIdeal.Gen.W10 m ρ c (Proc.devRef .tc Cert.KernelIdeal.main_v105), ?_, ?_⟩
  · refine (θ_run Cert.KernelIdeal.defs _ _).mono (fun r h c => ?_) (Cert.KernelIdeal.Whole.run_buffers (F := Ideal) m ρ)
    exact ⟨h c Cert.KernelIdeal.main_v104 (by decide), h c Cert.KernelIdeal.main_v105 (by decide),
      (h c Cert.KernelIdeal.main_arg0 (by decide)).trans (Cert.KernelIdeal.Gen.W10_main_arg0 m ρ c),
      (h c Cert.KernelIdeal.main_arg1 (by decide)).trans (Cert.KernelIdeal.Gen.W10_main_arg1 m ρ c),
      (h c Cert.KernelIdeal.main_arg2 (by decide)).trans (Cert.KernelIdeal.Gen.W10_main_arg2 m ρ c),
      (h c Cert.KernelIdeal.main_arg3 (by decide)).trans (Cert.KernelIdeal.Gen.W10_main_arg3 m ρ c),
      (h c Cert.KernelIdeal.main_arg4 (by decide)).trans (Cert.KernelIdeal.Gen.W10_main_arg4 m ρ c),
      (h c Cert.KernelIdeal.main_arg5 (by decide)).trans (Cert.KernelIdeal.Gen.W10_main_arg5 m ρ c),
      (h c Cert.KernelIdeal.main_arg6 (by decide)).trans (Cert.KernelIdeal.Gen.W10_main_arg6 m ρ c),
      (h c Cert.KernelIdeal.main_arg7 (by decide)).trans (Cert.KernelIdeal.Gen.W10_main_arg7 m ρ c),
      (h c Cert.KernelIdeal.main_arg8 (by decide)).trans (Cert.KernelIdeal.Gen.W10_main_arg8 m ρ c),
      (h c Cert.KernelIdeal.main_arg9 (by decide)).trans (Cert.KernelIdeal.Gen.W10_main_arg9 m ρ c),
      (h c Cert.KernelIdeal.main_arg10 (by decide)).trans (Cert.KernelIdeal.Gen.W10_main_arg10 m ρ c)⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10⟩ := hagree c
    refine ⟨h0.trans ?_, h1.trans ?_, hargs⟩
    · rw [Cert.ReferenceIdeal.Read.val_main_v118_eq, e0, e1, e2, e3, e5, e6, e7, e8, e9, e10]
      exact (Cert.KernelIdeal.Stages.positive_result m ρ c).symm
    · rw [Cert.ReferenceIdeal.Read.val_main_v142_eq, e0, e1, e2, e4, e5, e6, e7, e8, e9, e10]
      exact (Cert.KernelIdeal.Stages.negative_result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
